-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x256 .f32) (main_arg1 : IVec S2x1600000 32) (main_arg2 : FVec F S256x128 .f32) (main_arg3 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1600000x128 : Shape := ⟨2, ![1600000, 128]⟩
abbrev S1x128 : Shape := ⟨2, ![1, 128]⟩
abbrev S5000 : Shape := ⟨1, ![5000]⟩

abbrev nBuf : Space → Nat
  | .hbm => 40
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x128, .bf16⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .bf16⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  reduces_S5000x128_S5000 : S5000x128.Reduces [1] S5000
  shapeCasts_S5000_S5000x1 : S5000.ShapeCasts S5000x1
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 88
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S100000x128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000, .f32⟩
  | .hbm, ⟨69, _⟩ => ⟨S100000x1, .f32⟩
  | .hbm, ⟨70, _⟩ => ⟨S_, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000, .f32⟩
  | .hbm, ⟨81, _⟩ => ⟨S100000x1, .f32⟩
  | .hbm, ⟨82, _⟩ => ⟨S100000x1, .f32⟩
  | .hbm, ⟨83, _⟩ => ⟨S_, .f32⟩
  | .hbm, ⟨84, _⟩ => ⟨S100000x1, .f32⟩
  | .hbm, ⟨85, _⟩ => ⟨S100000x1, .f32⟩
  | .hbm, ⟨86, _⟩ => ⟨S100000x128, .f32⟩
  | .hbm, ⟨87, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_call1_v0 : Ref sig .tc := ⟨.hbm, 78, rfl⟩
abbrev main_call1_cst : Ref sig .tc := ⟨.hbm, 79, rfl⟩
abbrev main_call1_v1 : Ref sig .tc := ⟨.hbm, 80, rfl⟩
abbrev main_call1_v2 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x1 : S_.BroadcastsInDim S100000x1 (![] : Fin 0 → Fin S100000x1.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KRun.lean ====
/- The kernel program's run with its result array named: every weakly fair execution of @main on the TensorCores
   terminates without fault, and every final state holds, on each core, the result buffer at the last boundary's
   contents (the fold of the two regions' write-backs through the host stretches) and the four argument arrays as launched. -/
import proofs.«130602_j35201551958714_2_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- The run, result named: the last thread state holds every unscoped buffer at the last boundary's contents `W4`;
    the result buffer `main_v28` is one of them, and each argument's contents walk back to the launch memory. -/
theorem run_named : θ_run defs (onTc (τ := τ) (main (F := F))) ⟨m, fun _ => 0, ρ⟩ (fun r => ∀ c : Dev nD,
      r.2.mem ((c.tc : Thread nD τ).loc main_v28) = Gen.W4 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v28 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.KValue

end
-- ==== Proof.Spec.lean ====
/-
  The mathematics of the graph-convolution layer, stated once on the exact extended reals, with no program in sight.

  A node feature matrix x [100000, 256] is multiplied by W [256, 128]; every node i then collects, over the edges
  e whose destination is i, the transformed features of the edge's source, each edge weighted by the product of the
  two end points' inverse square-root degrees, plus the node's own self-loop term; a bias is added; and every row is
  min-max scaled and divided by its Euclidean norm (clamped from below).

  Two arrangements of the collected sum are written down. In the first (`aggK`) the source's factor is folded into the
  transformed features before they are collected, the self loop is a dense term, and the destination's factor multiplies
  the whole sum afterwards. In the second (`aggR`) the self loops are 100000 extra edges appended to the edge list and
  every edge carries both factors. That the two agree is proved elsewhere; here are only the definitions, and the
  per-row tail that both are fed to.

  Conventions of the index arithmetic, as the array operations have them: a scatter index is read as a signed integer
  and names row i only when it equals i (anything else is dropped); a gather index, negative ones first counted from
  the end, is read signed and clamped into [0, 99999].
-/
import Idealize.ShloMosaic.Lib.ValueIdx
import Idealize.ShloMosaic.PureOps.Ideal

noncomputable section

namespace Cert.Spec

open Idealize.ShloMosaic Idealize.ShloMosaic.ValueIdx

/-- The argument shapes. -/
abbrev SX : Shape := ⟨2, ![100000, 256]⟩
abbrev SI : Shape := ⟨2, ![2, 1600000]⟩
abbrev SW : Shape := ⟨2, ![256, 128]⟩
abbrev SB : Shape := ⟨1, ![128]⟩
/-- The result shape. -/
abbrev SO : Shape := ⟨2, ![100000, 128]⟩

/-- The float word of 1.0. -/
abbrev one : EReal := Ideal.ofBits .f32 0x3F800000#32

/-- Edge e's source and destination words. -/
def src (ei : IVec SI 32) (e : Fin 1600000) : BitVec 32 := ei (ix2 (0 : Fin 2) e)
def dst (ei : IVec SI 32) (e : Fin 1600000) : BitVec 32 := ei (ix2 (1 : Fin 2) e)

/-- A negative index is counted from the end (what array indexing does before it gathers). -/
def wrap (v : BitVec 32) : BitVec 32 := Scalar.select (IntOp.cmpi .slt v 0#32) (IntOp.addi v 100000#32) v

/-- The row a gather reads for an index word: signed, clamped into [0, 99999]. -/
def pick (v : BitVec 32) : Fin 100000 := ⟨min v.toInt.toNat 99999, by omega⟩

/-! ## The transformed features -/

/-- (x W) at node i, channel k. -/
def lin (x : FVec Ideal SX .f32) (W : FVec Ideal SW .f32) (i : Fin 100000) (k : Fin 128) : EReal :=
  ∑ c : Fin 256, x (ix2 i c) * W (ix2 c k)

/-! ## The first arrangement: source factor folded in, dense self loop, destination factor last -/

/-- The number of edges into node i, as a sum of ones. -/
def cnt (ei : IVec SI 32) (i : Fin 100000) : EReal :=
  ∑ e : Fin 1600000, if (dst ei e).toInt = (i.val : ℤ) then one else 0

/-- The degree with the self loop, and its inverse square root. -/
def degK (ei : IVec SI 32) (i : Fin 100000) : EReal := cnt ei i + one
def dinvK (ei : IVec SI 32) (i : Fin 100000) : EReal := Ideal.rsqrt (max (degK ei i) one)

/-- The transformed features scaled by the node's own factor. -/
def scaled (x : FVec Ideal SX .f32) (ei : IVec SI 32) (W : FVec Ideal SW .f32) (i : Fin 100000) (k : Fin 128) : EReal :=
  lin x W i k * dinvK ei i

/-- What the edges into node i bring. -/
def collected (x : FVec Ideal SX .f32) (ei : IVec SI 32) (W : FVec Ideal SW .f32) (i : Fin 100000) (k : Fin 128) : EReal :=
  ∑ e : Fin 1600000, if (dst ei e).toInt = (i.val : ℤ) then scaled x ei W (pick (wrap (src ei e))) k else 0

/-- The aggregated features, first arrangement. -/
def aggK (x : FVec Ideal SX .f32) (ei : IVec SI 32) (W : FVec Ideal SW .f32) (b : FVec Ideal SB .f32)
    (i : Fin 100000) (k : Fin 128) : EReal :=
  (collected x ei W i k + scaled x ei W i k) * dinvK ei i + b (ix1 k)

/-! ## The second arrangement: the self loops appended as edges 1600000 … 1699999 -/

/-- The extended edge list's source and destination words: an edge's own, then node j for the j-th self loop. -/
def srcR (ei : IVec SI 32) (e : Fin 1700000) : BitVec 32 :=
  if h : e.val < 1600000 then src ei ⟨e.val, h⟩ else BitVec.ofNat 32 (e.val - 1600000)
def dstR (ei : IVec SI 32) (e : Fin 1700000) : BitVec 32 :=
  if h : e.val < 1600000 then dst ei ⟨e.val, h⟩ else BitVec.ofNat 32 (e.val - 1600000)

/-- The degree as a sum of ones over the extended list, and its guarded inverse square root. -/
def degR (ei : IVec SI 32) (i : Fin 100000) : EReal :=
  ∑ e : Fin 1700000, if (dstR ei e).toInt = (i.val : ℤ) then one else 0
def dinvR (ei : IVec SI 32) (i : Fin 100000) : EReal :=
  Scalar.select (Ideal.cmp .ogt (degR ei i) 0) (Ideal.rsqrt (max (degR ei i) one)) 0

/-- The aggregated features, second arrangement. -/
def aggR (x : FVec Ideal SX .f32) (ei : IVec SI 32) (W : FVec Ideal SW .f32) (b : FVec Ideal SB .f32)
    (i : Fin 100000) (k : Fin 128) : EReal :=
  (∑ e : Fin 1700000, if (dstR ei e).toInt = (i.val : ℤ)
      then lin x W (pick (wrap (srcR ei e))) k * (dinvR ei (pick (wrap (srcR ei e))) * dinvR ei (pick (wrap (dstR ei e))))
      else 0)
    + b (ix1 k)

/-! ## The per-row tail: min-max scaling, then division by the clamped Euclidean norm -/

/-- A row's minimum and maximum, folded from +∞ and −∞. -/
def rowMin (A : Fin 128 → EReal) : EReal := (Finset.univ : Finset (Fin 128)).fold min (Ideal.ofBits .f32 0x7F800000#32) A
def rowMax (A : Fin 128 → EReal) : EReal := (Finset.univ : Finset (Fin 128)).fold max (Ideal.ofBits .f32 0xFF800000#32) A

/-- The min-max scaled entry. -/
def scaledRow (A : Fin 128 → EReal) (k : Fin 128) : EReal := Ideal.div (A k - rowMin A) (rowMax A - rowMin A)

/-- The scaled row's Euclidean norm, clamped from below by the float word of 1e-12. -/
def rowNorm (A : Fin 128 → EReal) : EReal :=
  max (Ideal.sqrt (∑ k : Fin 128, scaledRow A k * scaledRow A k)) (Ideal.ofBits .f32 0x2B8CBCCC#32)

/-- The row's final entry. -/
def rowTail (A : Fin 128 → EReal) (k : Fin 128) : EReal := Ideal.div (scaledRow A k) (rowNorm A)

/-- The whole result, first arrangement: what the two-kernel program is shown to compute. -/
def outK (x : FVec Ideal SX .f32) (ei : IVec SI 32) (W : FVec Ideal SW .f32) (b : FVec Ideal SB .f32) : FVec Ideal SO .f32 :=
  fun j => rowTail (fun k' => aggK x ei W b (j 0) k') (j 1)

/-- The whole result, second arrangement: what the plain program is shown to compute. -/
def outR (x : FVec Ideal SX .f32) (ei : IVec SI 32) (W : FVec Ideal SW .f32) (b : FVec Ideal SB .f32) : FVec Ideal SO .f32 :=
  fun j => rowTail (fun k' => aggR x ei W b (j 0) k') (j 1)

end Cert.Spec

end
-- ==== Proof.AlgebraBasics.lean ====
/-
  Elementary facts used by the comparison of the two arrangements of the collected sum: the float word of 1.0,
  the splitting of a sum over 1700000 indices into its first 1600000 and its last 100000, and the index arithmetic
  of small non-negative 32-bit words.
-/
import proofs.«130602_j35201551958714_2_alg».proof.Proof.Spec
import Idealize.ShloMosaic.PureOps.Ideal.Laws
import Mathlib

noncomputable section

namespace Cert.Algebra

open Idealize.ShloMosaic Idealize.ShloMosaic.ValueIdx
open Cert.Spec

/-- The float word 0x3F800000 (sign 0, exponent 127, fraction 0) denotes the real number 1. -/
theorem one_eq : Cert.Spec.one = (1 : EReal) := by
  show Ideal.ofBits .f32 0x3F800000#32 = (1 : EReal)
  simp [Ideal.ofBits, Ideal.ieee, -EReal.coe_mul]; norm_num

/-- A sum over 1700000 = 1600000 + 100000 indices is the sum over the first 1600000 plus the sum over the last 100000. -/
theorem sum_split (f : Fin 1700000 → EReal) :
    ∑ e : Fin 1700000, f e
      = (∑ e : Fin 1600000, f ⟨e.val, by omega⟩) + ∑ j : Fin 100000, f ⟨1600000 + j.val, by omega⟩ := by
  exact Fin.sum_univ_add (a := 1600000) (b := 100000) (f : Fin (1600000 + 100000) → EReal)

/-- A natural number below 100000, written as a 32-bit word and read back as a signed integer, is itself. -/
theorem toInt_ofNat_small (j : Fin 100000) : (BitVec.ofNat 32 j.val).toInt = (j.val : ℤ) := by
  have hj := j.isLt
  rw [BitVec.toInt_ofNat']
  have : ((j.val : ℤ)).bmod (2 ^ 32) = (j.val : ℤ) := by
    apply Int.bmod_eq_of_le <;> omega
  exact this

/-- A word that is not negative is left alone by the count-from-the-end step. -/
theorem wrap_of_nonneg (v : BitVec 32) (h : 0 ≤ v.toInt) : wrap v = v := by
  unfold wrap Scalar.select IntOp.cmpi
  have hs : v.slt 0#32 = false := by
    rw [BitVec.slt_eq_decide]
    simp
    exact h
  simp [hs]

/-- A word whose signed reading is the row number i picks row i. -/
theorem pick_of_toInt (v : BitVec 32) (i : Fin 100000) (h : v.toInt = (i.val : ℤ)) : pick v = i := by
  have hi := i.isLt
  apply Fin.ext
  show min v.toInt.toNat 99999 = i.val
  rw [h]
  simp
  omega

/-- Both steps together on a word whose signed reading is the row number i. -/
theorem pick_wrap_of_toInt (v : BitVec 32) (i : Fin 100000) (h : v.toInt = (i.val : ℤ)) : pick (wrap v) = i := by
  rw [wrap_of_nonneg v (by rw [h]; exact Int.natCast_nonneg _)]
  exact pick_of_toInt v i h

/-- The j-th self loop's word picks row j. -/
theorem pick_wrap_ofNat (j : Fin 100000) : pick (wrap (BitVec.ofNat 32 j.val)) = j :=
  pick_wrap_of_toInt _ j (toInt_ofNat_small j)

/-- The j-th self loop's word names row i exactly when j = i. -/
theorem ofNat_hits_iff (j i : Fin 100000) : (BitVec.ofNat 32 j.val).toInt = (i.val : ℤ) ↔ j = i := by
  rw [toInt_ofNat_small]
  constructor
  · intro h; exact Fin.ext (by exact_mod_cast h)
  · intro h; rw [h]

end Cert.Algebra

end
-- ==== Proof.AlgebraDeg.lean ====
/-
  The degree of a node, with its self loop, is the same real number at least 1 in both arrangements; so the guard of
  the second arrangement's inverse square root takes its first branch, the clamp from below by 1 does nothing, and the
  inverse square root is a non-negative real number, the same on both sides.
-/
import proofs.«130602_j35201551958714_2_alg».proof.Proof.AlgebraBasics

noncomputable section

namespace Cert.Algebra

open Idealize.ShloMosaic Idealize.ShloMosaic.ValueIdx
open Cert.Spec

/-! ## The extended edge list on its two parts -/

theorem srcR_lo (ei : IVec SI 32) (e : Fin 1600000) : srcR ei ⟨e.val, by omega⟩ = src ei e := by
  unfold srcR
  exact dif_pos e.isLt

theorem dstR_lo (ei : IVec SI 32) (e : Fin 1600000) : dstR ei ⟨e.val, by omega⟩ = dst ei e := by
  unfold dstR
  exact dif_pos e.isLt

theorem srcR_hi (ei : IVec SI 32) (j : Fin 100000) :
    srcR ei ⟨1600000 + j.val, by omega⟩ = BitVec.ofNat 32 j.val := by
  unfold srcR
  rw [dif_neg (by show ¬ (1600000 + j.val < 1600000); omega)]
  show BitVec.ofNat 32 (1600000 + j.val - 1600000) = BitVec.ofNat 32 j.val
  rw [Nat.add_sub_cancel_left]

theorem dstR_hi (ei : IVec SI 32) (j : Fin 100000) :
    dstR ei ⟨1600000 + j.val, by omega⟩ = BitVec.ofNat 32 j.val := by
  unfold dstR
  rw [dif_neg (by show ¬ (1600000 + j.val < 1600000); omega)]
  show BitVec.ofNat 32 (1600000 + j.val - 1600000) = BitVec.ofNat 32 j.val
  rw [Nat.add_sub_cancel_left]

/-! ## The degree -/

/-- A finite sum of ones and zeros is a natural number. -/
theorem sum_boole_nat {ι : Type*} (s : Finset ι) (P : ι → Prop) [DecidablePred P] :
    ∃ n : ℕ, (∑ e ∈ s, if P e then (1 : EReal) else 0) = ((n : ℝ) : EReal) := by
  classical
  induction s using Finset.induction_on with
  | empty => exact ⟨0, by simp⟩
  | insert a s ha ih =>
    obtain ⟨n, hn⟩ := ih
    rw [Finset.sum_insert ha, hn]
    by_cases h : P a
    · refine ⟨n + 1, ?_⟩
      rw [if_pos h, Nat.cast_add, Nat.cast_one, EReal.coe_add, EReal.coe_one, add_comm]
    · exact ⟨n, by rw [if_neg h, zero_add]⟩

/-- The number of edges into a node is a natural number. -/
theorem cnt_nat (ei : IVec SI 32) (i : Fin 100000) : ∃ n : ℕ, cnt ei i = ((n : ℝ) : EReal) := by
  unfold cnt
  rw [one_eq]
  exact sum_boole_nat _ _

/-- Over the extended edge list the sum of ones is the edges' count plus the one self loop of the node. -/
theorem degR_eq_degK (ei : IVec SI 32) (i : Fin 100000) : degR ei i = degK ei i := by
  unfold degR degK cnt
  rw [sum_split]
  refine congrArg₂ (· + ·) ?_ ?_
  · exact Finset.sum_congr rfl fun e _ => by rw [dstR_lo]
  · have h : ∀ j : Fin 100000,
        (if (dstR ei ⟨1600000 + j.val, by omega⟩).toInt = (i.val : ℤ) then one else 0)
          = if j = i then one else (0 : EReal) := by
      intro j
      rw [dstR_hi]
      exact if_congr (ofNat_hits_iff j i) rfl rfl
    rw [Finset.sum_congr rfl fun j _ => h j, Finset.sum_ite_eq' Finset.univ i, if_pos (Finset.mem_univ i)]

/-- The degree with the self loop is a real number at least 1. -/
theorem degK_real (ei : IVec SI 32) (i : Fin 100000) : ∃ r : ℝ, 1 ≤ r ∧ degK ei i = (r : EReal) := by
  obtain ⟨n, hn⟩ := cnt_nat ei i
  refine ⟨(n : ℝ) + 1, by linarith [Nat.cast_nonneg (α := ℝ) n], ?_⟩
  unfold degK
  rw [hn, one_eq, EReal.coe_add, EReal.coe_one]

/-! ## The inverse square root -/

/-- At a real number at least 1 the clamp from below by 1 does nothing and the inverse square root is the real
    number 1/√r. -/
theorem rsqrt_max_of_real (r : ℝ) (hr : 1 ≤ r) :
    Ideal.rsqrt (max (r : EReal) one) = (((Real.sqrt r)⁻¹ : ℝ) : EReal) := by
  have h1 : (one : EReal) ≤ (r : EReal) := by
    rw [one_eq, ← EReal.coe_one]
    exact EReal.coe_le_coe_iff.mpr hr
  rw [max_eq_left h1, Ideal.rsqrt_coe, if_neg (by linarith), if_neg (by linarith)]

/-- At a positive real number the comparison "greater than zero" holds, so the guarded choice is its first branch. -/
theorem select_ogt_of_pos (r : ℝ) (hr : 0 < r) (a c : EReal) :
    Scalar.select (Ideal.cmp .ogt (r : EReal) 0) a c = a := by
  have hc : Ideal.cmp .ogt (r : EReal) 0 = 1#1 := by
    show BitVec.ofBool (decide ((0 : EReal) < (r : EReal))) = 1#1
    rw [decide_eq_true (EReal.coe_pos.mpr hr)]
    rfl
  unfold Scalar.select
  rw [hc]
  exact if_pos rfl

/-- The two arrangements' inverse square-root factors agree. -/
theorem dinvR_eq_dinvK (ei : IVec SI 32) (j : Fin 100000) : dinvR ei j = dinvK ei j := by
  obtain ⟨r, hr, hd⟩ := degK_real ei j
  unfold dinvR dinvK
  rw [degR_eq_degK, hd]
  exact select_ogt_of_pos r (by linarith) _ _

/-- The factor is a non-negative real number. -/
theorem dinvK_real (ei : IVec SI 32) (j : Fin 100000) : ∃ d : ℝ, 0 ≤ d ∧ dinvK ei j = (d : EReal) := by
  obtain ⟨r, hr, hd⟩ := degK_real ei j
  refine ⟨(Real.sqrt r)⁻¹, inv_nonneg.mpr (Real.sqrt_nonneg r), ?_⟩
  unfold dinvK
  rw [hd]
  exact rsqrt_max_of_real r hr

end Cert.Algebra

end
-- ==== Proof.AlgebraLaw.lean ====
/-
  The one algebraic law behind the comparison: on the extended reals, multiplication by a NON-NEGATIVE REAL number
  distributes over a finite sum of arbitrary (possibly infinite) summands, and multiplication is commutative and
  associative; so a factor common to every term of the collected sum may be taken out of it.
-/
import Mathlib

noncomputable section

namespace Cert.Algebra

/-- Multiplying a finite sum of arbitrary extended reals by a non-negative real distributes over the sum. -/
theorem sum_mul_coe_of_nonneg {ι : Type*} (s : Finset ι) (f : ι → EReal) (D : ℝ) (hD : 0 ≤ D) :
    (∑ e ∈ s, f e) * (D : EReal) = ∑ e ∈ s, f e * (D : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hD) (EReal.coe_ne_top D) _ _

/-- The law: with every edge term carrying both factors and the self loop a term D·D on the one side, and the
    destination's factor D (a non-negative real) multiplying the whole sum on the other, the two sides agree,
    whatever extended reals the transformed features L and the sources' factors d are. -/
theorem law {ι : Type*} (s : Finset ι) (hit : ι → Prop) [DecidablePred hit] (L d : ι → EReal) (Li b : EReal)
    (D : ℝ) (hD : 0 ≤ D) :
    (∑ e ∈ s, if hit e then L e * (d e * (D : EReal)) else 0) + Li * ((D : EReal) * (D : EReal)) + b
      = ((∑ e ∈ s, if hit e then L e * d e else 0) + Li * (D : EReal)) * (D : EReal) + b := by
  congr 1
  rw [EReal.right_distrib_of_nonneg_of_ne_top (EReal.coe_nonneg.mpr hD) (EReal.coe_ne_top D),
    sum_mul_coe_of_nonneg s _ D hD, mul_assoc]
  congr 1
  apply Finset.sum_congr rfl
  intro e _
  split_ifs
  · rw [mul_assoc]
  · rw [zero_mul]

end Cert.Algebra

end
-- ==== Proof.Algebra.lean ====
/-
  The two arrangements of the collected sum agree on the extended reals, with no finiteness assumed of the features,
  the weights or the bias: the self loops appended to the edge list contribute exactly the node's own dense term, the
  inverse square-root factors are the same non-negative real numbers on both sides, and a non-negative real factor
  common to every term may be taken out of a sum of arbitrary extended reals.
-/
import proofs.«130602_j35201551958714_2_alg».proof.Proof.AlgebraDeg
import proofs.«130602_j35201551958714_2_alg».proof.Proof.AlgebraLaw

noncomputable section

namespace Cert.Algebra

open Idealize.ShloMosaic Idealize.ShloMosaic.ValueIdx
open Cert.Spec

/-- The aggregated features of the two arrangements agree at every node and channel. -/
theorem agg_eq (x : FVec Ideal Cert.Spec.SX .f32) (ei : IVec Cert.Spec.SI 32) (W : FVec Ideal Cert.Spec.SW .f32)
    (b : FVec Ideal Cert.Spec.SB .f32) (i : Fin 100000) (k : Fin 128) :
    Cert.Spec.aggR x ei W b i k = Cert.Spec.aggK x ei W b i k := by
  obtain ⟨D, hD0, hD⟩ := dinvK_real ei i
  -- an edge into node i: its destination's factor is node i's, and both factors are the first arrangement's
  have h1 : ∀ e : Fin 1600000,
      (if (dstR ei ⟨e.val, by omega⟩).toInt = (i.val : ℤ)
        then lin x W (pick (wrap (srcR ei ⟨e.val, by omega⟩))) k
          * (dinvR ei (pick (wrap (srcR ei ⟨e.val, by omega⟩))) * dinvR ei (pick (wrap (dstR ei ⟨e.val, by omega⟩))))
        else 0)
      = if (dst ei e).toInt = (i.val : ℤ)
        then lin x W (pick (wrap (src ei e))) k * (dinvK ei (pick (wrap (src ei e))) * (D : EReal))
        else 0 := by
    intro e
    rw [dstR_lo, srcR_lo]
    by_cases h : (dst ei e).toInt = (i.val : ℤ)
    · rw [if_pos h, if_pos h, pick_wrap_of_toInt _ i h, dinvR_eq_dinvK, dinvR_eq_dinvK, hD]
    · rw [if_neg h, if_neg h]
  -- the j-th self loop lands on node i exactly when j = i, and then brings node i's own term
  have h2 : ∀ j : Fin 100000,
      (if (dstR ei ⟨1600000 + j.val, by omega⟩).toInt = (i.val : ℤ)
        then lin x W (pick (wrap (srcR ei ⟨1600000 + j.val, by omega⟩))) k
          * (dinvR ei (pick (wrap (srcR ei ⟨1600000 + j.val, by omega⟩)))
              * dinvR ei (pick (wrap (dstR ei ⟨1600000 + j.val, by omega⟩))))
        else 0)
      = if j = i then lin x W i k * ((D : EReal) * (D : EReal)) else 0 := by
    intro j
    rw [dstR_hi, srcR_hi]
    by_cases h : j = i
    · rw [if_pos ((ofNat_hits_iff j i).mpr h), if_pos h, pick_wrap_ofNat, h, dinvR_eq_dinvK, hD]
    · rw [if_neg (fun hh => h ((ofNat_hits_iff j i).mp hh)), if_neg h]
  unfold aggR aggK collected scaled
  rw [sum_split, Finset.sum_congr rfl fun e _ => h1 e, Finset.sum_congr rfl fun j _ => h2 j,
    Finset.sum_ite_eq' Finset.univ i, if_pos (Finset.mem_univ i), hD]
  exact law Finset.univ (fun e => (dst ei e).toInt = (i.val : ℤ)) (fun e => lin x W (pick (wrap (src ei e))) k)
    (fun e => dinvK ei (pick (wrap (src ei e)))) (lin x W i k) (b (ix1 k)) D hD0

/-- Hence the whole results agree: both feed the same per-row tail. -/
theorem out_eq (x : FVec Ideal Cert.Spec.SX .f32) (ei : IVec Cert.Spec.SI 32) (W : FVec Ideal Cert.Spec.SW .f32)
    (b : FVec Ideal Cert.Spec.SB .f32) : Cert.Spec.outR x ei W b = Cert.Spec.outK x ei W b := by
  funext j
  unfold outR outK
  have h : (fun k' => aggR x ei W b (j 0) k') = (fun k' => aggK x ei W b (j 0) k') :=
    funext fun k' => agg_eq x ei W b (j 0) k'
  rw [h]

end Cert.Algebra

end
-- ==== Proof.LibScatterRows.lean ====
/-
  An accumulating scatter of rows, read at an index, on the exact extended reals.

  Updates `u` of shape [E, D] are added into an [n, D] array `x`, update row `e` going to the row of `x` that the e-th
  scatter index names (read as a signed integer, not clamped; a row outside `0 ≤ · < n` is dropped). The entry of the
  result at row `p` and column `k` is then

      x (p, k) + ∑ over the update rows e whose index is p, of u (e, k):

  only the update's own column `k` can land in column `k`, so the filter over all [E, D] update positions collapses to
  a filter over the E update rows. The one-axis form adds scalar updates [E] into a vector [n] in the same way.
  Both are general in the extents, in the index width and in the float format.
-/
import Idealize.ShloMosaic.Lib.ValueIdx
import Idealize.ShloMosaic.PureOps.Ideal

noncomputable section

namespace Cert.LibScatterRows

open Idealize.ShloMosaic Idealize.ShloMosaic.ValueIdx

variable {n E D w : ℕ}

/-! ## Rows into a matrix -/

/-- The dimension numbers of a row scatter: the update's axis 1 is the window (the operand's axis 1), the operand's
    axis 0 is the scattered one, and each scatter index is one scalar, on the index array's axis 1. -/
abbrev rowsDims (n E D : ℕ) (wf : ScatterDims.WF (⟨2, ![n, D]⟩ : Shape) ⟨2, ![E, 1]⟩ ⟨2, ![E, D]⟩ [1] [0] [0] 1) :
    ScatterDims ⟨2, ![n, D]⟩ ⟨2, ![E, 1]⟩ ⟨2, ![E, D]⟩ := ⟨[1], [0], [0], 1, wf⟩

/-- On the scattered axis the window of update position (e, k) starts at the e-th scatter index, read signed. -/
theorem rows_start_zero (wf) (idx : IVec ⟨2, ![E, 1]⟩ w) (e : Fin E) (k : Fin D) :
    (rowsDims n E D wf).start (ix2 e k) idx 0 = (idx (ix2 e 0)).toInt := by
  unfold ScatterDims.start
  rw [dif_pos (List.mem_singleton.mpr rfl)]
  congr 2
  funext b
  match b with
  | ⟨0, _⟩ =>
    unfold ScatterDims.siIdx
    rw [dif_neg (by show ¬ (0 : ℕ) = 1; omega)]
    rfl
  | ⟨1, _⟩ =>
    unfold ScatterDims.siIdx
    rw [dif_pos (by show (1 : ℕ) = 1; rfl)]
    rfl

/-- On the window axis the start is zero: no scatter index names it. -/
theorem rows_start_one (wf) (idx : IVec ⟨2, ![E, 1]⟩ w) (e : Fin E) (k : Fin D) :
    (rowsDims n E D wf).start (ix2 e k) idx 1 = 0 := by
  unfold ScatterDims.start
  rw [dif_neg (by show (1 : Fin 2) ∉ ([0] : List (Fin 2)); decide)]

/-- The scattered axis carries no window coordinate. -/
theorem rows_window_zero (wf) (e : Fin E) (k : Fin D) : (rowsDims n E D wf).window (ix2 e k) 0 = 0 := by
  unfold ScatterDims.window
  rw [dif_neg (by show (0 : Fin 2) ∉ ([1] : List (Fin 2)); decide)]

/-- The window axis carries the update's column. -/
theorem rows_window_one (wf) (e : Fin E) (k : Fin D) : (rowsDims n E D wf).window (ix2 e k) 1 = k.val := by
  unfold ScatterDims.window
  rw [dif_pos (by show (1 : Fin 2) ∈ ([1] : List (Fin 2)); decide)]
  rfl

/-- Update position (e, k') lands on entry (p, k) exactly when the e-th scatter index is p and the columns agree. -/
theorem rows_resultIdx_iff (wf) (idx : IVec ⟨2, ![E, 1]⟩ w) (e : Fin E) (k' : Fin D) (p : Fin n) (k : Fin D) :
    (rowsDims n E D wf).resultIdx? (ix2 e k') idx = some (ix2 p k) ↔ ((idx (ix2 e 0)).toInt = (p.val : ℤ) ∧ k' = k) := by
  have hs0 := rows_start_zero (n := n) wf idx e k'
  have hs1 := rows_start_one (n := n) wf idx e k'
  have hw0 := rows_window_zero (n := n) wf e k'
  have hw1 := rows_window_one (n := n) wf e k'
  have hp := p.isLt
  have hk' := k'.isLt
  unfold ScatterDims.resultIdx?
  split
  · rename_i h
    rw [Option.some.injEq]
    constructor
    · intro hf
      have h0 : ((rowsDims n E D wf).start (ix2 e k') idx 0 + ((rowsDims n E D wf).window (ix2 e k') 0 : ℕ)).toNat = p.val :=
        congrArg (fun f : (⟨2, ![n, D]⟩ : Shape).Idx => (f 0).val) hf
      have h1 : ((rowsDims n E D wf).start (ix2 e k') idx 1 + ((rowsDims n E D wf).window (ix2 e k') 1 : ℕ)).toNat = k.val :=
        congrArg (fun f : (⟨2, ![n, D]⟩ : Shape).Idx => (f 1).val) hf
      have g0 := (h 0).1
      rw [hs0, hw0] at h0 g0
      rw [hs1, hw1] at h1
      exact ⟨by omega, Fin.ext (by omega)⟩
    · rintro ⟨hc, rfl⟩
      funext a
      match a with
      | ⟨0, _⟩ =>
        apply Fin.ext
        show ((rowsDims n E D wf).start (ix2 e k') idx 0 + ((rowsDims n E D wf).window (ix2 e k') 0 : ℕ)).toNat = p.val
        rw [hs0, hw0, hc]; omega
      | ⟨1, _⟩ =>
        apply Fin.ext
        show ((rowsDims n E D wf).start (ix2 e k') idx 1 + ((rowsDims n E D wf).window (ix2 e k') 1 : ℕ)).toNat = k'.val
        rw [hs1, hw1]; omega
  · rename_i h
    constructor
    · intro hf; exact absurd hf (by simp)
    · rintro ⟨hc, rfl⟩
      exfalso
      apply h
      intro a
      match a with
      | ⟨0, _⟩ =>
        show 0 ≤ (rowsDims n E D wf).start (ix2 e k') idx 0 + ((rowsDims n E D wf).window (ix2 e k') 0 : ℕ)
          ∧ (rowsDims n E D wf).start (ix2 e k') idx 0 + ((rowsDims n E D wf).window (ix2 e k') 0 : ℕ) < (n : ℤ)
        rw [hs0, hw0, hc]; omega
      | ⟨1, _⟩ =>
        show 0 ≤ (rowsDims n E D wf).start (ix2 e k') idx 1 + ((rowsDims n E D wf).window (ix2 e k') 1 : ℕ)
          ∧ (rowsDims n E D wf).start (ix2 e k') idx 1 + ((rowsDims n E D wf).window (ix2 e k') 1 : ℕ) < (D : ℤ)
        rw [hs1, hw1]; omega

/-- THE ROW SCATTER AT AN ENTRY: the operand's entry plus the sum, over the update rows whose scatter index is the
    entry's row, of the update at that row and the entry's column. -/
theorem scatterAdd_rows_apply {φ : FTy} (wf) (x : FVec Ideal ⟨2, ![n, D]⟩ φ) (idx : IVec ⟨2, ![E, 1]⟩ w)
    (upd : FVec Ideal ⟨2, ![E, D]⟩ φ) (p : Fin n) (k : Fin D) :
    Host.scatterAdd (F := Ideal) (rowsDims n E D wf) x idx upd (ix2 p k)
      = x (ix2 p k) + ∑ e : Fin E, if (idx (ix2 e 0)).toInt = (p.val : ℤ) then upd (ix2 e k) else 0 := by
  show x (ix2 p k) + ∑ j ∈ Finset.univ.filter (fun j => (rowsDims n E D wf).resultIdx? j idx = some (ix2 p k)), upd j = _
  congr 1
  rw [Finset.sum_filter, sum_idx2]
  refine Finset.sum_congr rfl fun e _ => ?_
  simp only [rows_resultIdx_iff]
  by_cases hc : (idx (ix2 e 0)).toInt = (p.val : ℤ)
  · simp only [hc, true_and, if_true]
    rw [Finset.sum_ite_eq' Finset.univ k (fun k' => upd (ix2 e k'))]
    simp
  · simp only [hc, false_and, if_false]
    exact Finset.sum_const_zero

/-! ## Scalars into a vector -/

/-- The dimension numbers of a scalar scatter: the updates have no window axis, the operand's one axis is the
    scattered one, and each scatter index is one scalar, on the index array's axis 1. -/
abbrev scalarsDims (n E : ℕ) (wf : ScatterDims.WF (⟨1, ![n]⟩ : Shape) ⟨2, ![E, 1]⟩ ⟨1, ![E]⟩ [] [0] [0] 1) :
    ScatterDims ⟨1, ![n]⟩ ⟨2, ![E, 1]⟩ ⟨1, ![E]⟩ := ⟨[], [0], [0], 1, wf⟩

/-- A rank-1 index set is its coordinate range, so a sum over it is the sum over the coordinate. -/
theorem sum_idx1 {M : Type*} [AddCommMonoid M] (f : (⟨1, ![E]⟩ : Shape).Idx → M) : ∑ i, f i = ∑ e : Fin E, f (ix1 e) := by
  refine (Equiv.sum_comp (⟨ix1, fun i => i 0, fun _ => rfl, fun i => (eq_ix1 i).symm⟩ : Fin E ≃ (⟨1, ![E]⟩ : Shape).Idx) f).symm

/-- Update e starts at the e-th scatter index, read signed. -/
theorem scalars_start (wf) (idx : IVec ⟨2, ![E, 1]⟩ w) (e : Fin E) :
    (scalarsDims n E wf).start (ix1 e) idx 0 = (idx (ix2 e 0)).toInt := by
  unfold ScatterDims.start
  rw [dif_pos (List.mem_singleton.mpr rfl)]
  congr 2
  funext b
  match b with
  | ⟨0, _⟩ =>
    unfold ScatterDims.siIdx
    rw [dif_neg (by show ¬ (0 : ℕ) = 1; omega)]
    rfl
  | ⟨1, _⟩ =>
    unfold ScatterDims.siIdx
    rw [dif_pos (by show (1 : ℕ) = 1; rfl)]
    rfl

/-- There is no window coordinate. -/
theorem scalars_window (wf) (e : Fin E) : (scalarsDims n E wf).window (ix1 e) 0 = 0 := by
  unfold ScatterDims.window
  rw [dif_neg (by show (0 : Fin 1) ∉ ([] : List (Fin 1)); decide)]

/-- Update e lands on entry p exactly when the e-th scatter index is p. -/
theorem scalars_resultIdx_iff (wf) (idx : IVec ⟨2, ![E, 1]⟩ w) (e : Fin E) (p : Fin n) :
    (scalarsDims n E wf).resultIdx? (ix1 e) idx = some (ix1 p) ↔ (idx (ix2 e 0)).toInt = (p.val : ℤ) := by
  have hs0 := scalars_start (n := n) wf idx e
  have hw0 := scalars_window (n := n) wf e
  have hp := p.isLt
  unfold ScatterDims.resultIdx?
  split
  · rename_i h
    rw [Option.some.injEq]
    constructor
    · intro hf
      have h0 : ((scalarsDims n E wf).start (ix1 e) idx 0 + ((scalarsDims n E wf).window (ix1 e) 0 : ℕ)).toNat = p.val :=
        congrArg (fun f : (⟨1, ![n]⟩ : Shape).Idx => (f 0).val) hf
      have g0 := (h 0).1
      rw [hs0, hw0] at h0 g0
      omega
    · intro hc
      funext a
      match a with
      | ⟨0, _⟩ =>
        apply Fin.ext
        show ((scalarsDims n E wf).start (ix1 e) idx 0 + ((scalarsDims n E wf).window (ix1 e) 0 : ℕ)).toNat = p.val
        rw [hs0, hw0, hc]; omega
  · rename_i h
    constructor
    · intro hf; exact absurd hf (by simp)
    · intro hc
      exfalso
      apply h
      intro a
      match a with
      | ⟨0, _⟩ =>
        show 0 ≤ (scalarsDims n E wf).start (ix1 e) idx 0 + ((scalarsDims n E wf).window (ix1 e) 0 : ℕ)
          ∧ (scalarsDims n E wf).start (ix1 e) idx 0 + ((scalarsDims n E wf).window (ix1 e) 0 : ℕ) < (n : ℤ)
        rw [hs0, hw0, hc]; omega

/-- THE SCALAR SCATTER AT AN ENTRY: the operand's entry plus the sum of the updates whose scatter index is the entry. -/
theorem scatterAdd_scalars_apply {φ : FTy} (wf) (x : FVec Ideal ⟨1, ![n]⟩ φ) (idx : IVec ⟨2, ![E, 1]⟩ w)
    (upd : FVec Ideal ⟨1, ![E]⟩ φ) (p : Fin n) :
    Host.scatterAdd (F := Ideal) (scalarsDims n E wf) x idx upd (ix1 p)
      = x (ix1 p) + ∑ e : Fin E, if (idx (ix2 e 0)).toInt = (p.val : ℤ) then upd (ix1 e) else 0 := by
  show x (ix1 p) + ∑ j ∈ Finset.univ.filter (fun j => (scalarsDims n E wf).resultIdx? j idx = some (ix1 p)), upd j = _
  congr 1
  rw [Finset.sum_filter, sum_idx1]
  refine Finset.sum_congr rfl fun e _ => ?_
  simp only [scalars_resultIdx_iff]

end Cert.LibScatterRows

end
-- ==== Proof.LibGatherRows.lean ====
/-
  A gather of rows along axis 0, read at an index.

  An [n, D] array `x` is gathered by an [E, 1] column of start indices into an [E, D] array: row `e` of the result is
  the row of `x` that the e-th start index names. The index is read as a signed integer and clamped into the
  operand, so that the one-row slice fits: a negative index reads row 0, an index beyond the last row reads row
  n − 1. The entry of the result at row `e` and column `k` is then

      x (min (idx (e, 0)).toInt.toNat (n − 1), k).

  The one-axis form gathers scalars of a vector [n] into a vector [E] in the same way. Both are general in the
  extents, in the index width and in the element type.
-/
import Idealize.ShloMosaic.Lib.ValueIdx

namespace Cert.LibGatherRows

open Idealize.ShloMosaic Idealize.ShloMosaic.ValueIdx

variable {n E D w : ℕ} {α : Type}

/-! ## Rows of a matrix -/

/-- The dimension numbers of a row gather: the result's axis 1 is the offset axis (the operand's axis 1, taken
    whole), the operand's axis 0 is collapsed (a slice of one row), and each start index is one scalar, on the
    index array's axis 1. -/
abbrev rowsDims (n E D : ℕ)
    (wf : GatherDims.WF (⟨2, ![n, D]⟩ : Shape) ⟨2, ![E, 1]⟩ ⟨2, ![E, D]⟩ [1] [0] [] [0] [] 1 ![1, D]) :
    GatherDims ⟨2, ![n, D]⟩ ⟨2, ![E, 1]⟩ ⟨2, ![E, D]⟩ := ⟨[1], [0], [], [], [0], 1, ![1, D], wf⟩

/-- THE ROW GATHER AT AN ENTRY: the operand at the row the e-th start index names (read signed, clamped into
    `[0, n − 1]`) and at the entry's own column. -/
theorem gather_rows_apply (hn : 0 < n) (wf) (x : (⟨2, ![n, D]⟩ : Shape).Idx → α) (idx : IVec ⟨2, ![E, 1]⟩ w)
    (e : Fin E) (k : Fin D) :
    Host.gather (rowsDims n E D wf) x idx (ix2 e k)
      = x (ix2 ⟨min (idx (ix2 e (0 : Fin 1))).toInt.toNat (n - 1), by omega⟩ k) := by
  unfold Host.gather
  congr 1
  funext a
  refine Fin.ext ?_
  match a with
  | ⟨0, _⟩ =>
    show (rowsDims n E D wf).start (ix2 e k) idx 0 + (rowsDims n E D wf).batchCoord (ix2 e k) 0
      + (rowsDims n E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims n E D wf).startIndexMap from List.mem_singleton.mpr rfl)]
    have hsi : (rowsDims n E D wf).siIdx (ix2 e k) ⟨List.idxOf (0 : Fin 2) (rowsDims n E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims n E D wf).start (ix2 e k) idx 1 + (rowsDims n E D wf).batchCoord (ix2 e k) 1
      + (rowsDims n E D wf).offCoord (ix2 e k) 1 = k.val
    rw [GatherDims.batchCoord_eq_zero _ _ _ List.not_mem_nil]
    unfold GatherDims.start
    rw [dif_neg (by show (1 : Fin 2) ∉ ([0] : List (Fin 2)); decide)]
    unfold GatherDims.offCoord
    rw [dif_pos ((GatherDims.mem_sKept _ _).mpr ⟨by show (1 : Fin 2) ∉ ([0] : List (Fin 2)); decide, List.not_mem_nil⟩)]
    simp only [Nat.add_zero, Nat.zero_add]
    rfl

/-! ## Scalars of a vector -/

/-- The dimension numbers of a scalar gather: the result has no offset axis, the operand's one axis is collapsed,
    and each start index is one scalar, on the index array's axis 1. -/
abbrev scalarsDims (n E : ℕ)
    (wf : GatherDims.WF (⟨1, ![n]⟩ : Shape) ⟨2, ![E, 1]⟩ ⟨1, ![E]⟩ [] [0] [] [0] [] 1 ![1]) :
    GatherDims ⟨1, ![n]⟩ ⟨2, ![E, 1]⟩ ⟨1, ![E]⟩ := ⟨[], [0], [], [], [0], 1, ![1], wf⟩

/-- THE SCALAR GATHER AT AN ENTRY: the operand at the position the e-th start index names (read signed, clamped
    into `[0, n − 1]`). -/
theorem gather_scalars_apply (hn : 0 < n) (wf) (x : (⟨1, ![n]⟩ : Shape).Idx → α) (idx : IVec ⟨2, ![E, 1]⟩ w)
    (e : Fin E) :
    Host.gather (scalarsDims n E wf) x idx (ix1 e)
      = x (ix1 ⟨min (idx (ix2 e (0 : Fin 1))).toInt.toNat (n - 1), by omega⟩) := by
  unfold Host.gather
  congr 1
  funext a
  obtain rfl : a = 0 := Subsingleton.elim _ _
  refine Fin.ext ?_
  show (scalarsDims n E wf).start (ix1 e) idx 0 + (scalarsDims n E wf).batchCoord (ix1 e) 0
    + (scalarsDims n E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (scalarsDims n E wf).startIndexMap from List.mem_singleton.mpr rfl)]
  have hsi : (scalarsDims n E wf).siIdx (ix1 e) ⟨List.idxOf (0 : Fin 1) (scalarsDims n E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibGatherRows
-- ==== Proof.LibColumnReshape.lean ====
/-
  A vector recast as a one-column matrix, read at an index: an `[a]` array cast to `[a, 1]` reads, at `(p, u)`, the
  operand at `p`, whatever the unit coordinate `u` (row-major positions: `p · 1 + 0 = p`). The companion of the library's
  `shapeCast_a_1a_apply` (one row); extent general.
-/
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.KHostOps.lean ====
/-
  The host operations of the two-kernel program around its kernels, as functions of the arrays they read, each read at
  an index on the exact extended reals.

  Before the first kernel: the two rows of the edge array, the in-degree count by an accumulating scatter of ones, the
  self loop, the clamp at one and the inverse square root, as a column. Between the kernels: the scaled features
  gathered at every edge's source (negative indices first counted from the end) and scattered, accumulating, to the
  edge's destination.
-/
import proofs.«130602_j35201551958714_2_alg».proof.KernelIdeal
import proofs.«130602_j35201551958714_2_alg».proof.Proof.Gen.KernelIdeal
import proofs.«130602_j35201551958714_2_alg».proof.Proof.Spec
import proofs.«130602_j35201551958714_2_alg».proof.Proof.LibScatterRows
import proofs.«130602_j35201551958714_2_alg».proof.Proof.LibGatherRows
import proofs.«130602_j35201551958714_2_alg».proof.Proof.LibColumnReshape
import Idealize.ShloMosaic.Lib.ValueLayout
import Idealize.ShloMosaic.Lib.Pipeline.Value
import Idealize.ShloMosaic.PureOps.Ideal.Laws

noncomputable section

namespace Cert.KernelIdeal.KHost

open Cert.KernelIdeal Cert.KernelIdeal.Facts₀ Cert.KernelIdeal.Facts Idealize.ShloMosaic Idealize.ShloMosaic.ValueIdx

/-! ## The edge array's two rows -/

/-- Row r of the [2, 1600000] edge array, as a vector. -/
def srcVec (ei : IVec S2x1600000 32) : IVec S1600000 32 :=
  shapeCast S1600000 (extractStridedSlice S1x1600000 ![0, 0] ei slices_S2x1600000_S1x1600000_0_0) shapeCasts_S1x1600000_S1600000
def dstVec (ei : IVec S2x1600000 32) : IVec S1600000 32 :=
  shapeCast S1600000 (extractStridedSlice S1x1600000 ![1, 0] ei slices_S2x1600000_S1x1600000_1_0) shapeCasts_S1x1600000_S1600000

theorem srcVec_apply (ei : IVec S2x1600000 32) (e : Fin 1600000) : srcVec ei (ix1 e) = Cert.Spec.src ei e := by
  unfold srcVec Cert.Spec.src
  refine (shapeCast_apply _ shapeCasts_S1x1600000_S1600000 (ix1 e) (ix2 (0 : Fin 1) e)
    (by rewrite [Shape.rowMajor_val_two, Shape.rowMajor_val_one]; show 0 * 1600000 + e.val = e.val; omega)).trans ?_
  exact extractStridedSlice_apply ![0, 0] ei slices_S2x1600000_S1x1600000_0_0 (ix2 (0 : Fin 1) e) (ix2 (0 : Fin 2) e) (fun a => match a with
    | ⟨0, _⟩ => by show (0 : ℕ) = 0 + 0; omega
    | ⟨1, _⟩ => by show e.val = 0 + e.val; omega)

theorem dstVec_apply (ei : IVec S2x1600000 32) (e : Fin 1600000) : dstVec ei (ix1 e) = Cert.Spec.dst ei e := by
  unfold dstVec Cert.Spec.dst
  refine (shapeCast_apply _ shapeCasts_S1x1600000_S1600000 (ix1 e) (ix2 (0 : Fin 1) e)
    (by rewrite [Shape.rowMajor_val_two, Shape.rowMajor_val_one]; show 0 * 1600000 + e.val = e.val; omega)).trans ?_
  exact extractStridedSlice_apply ![1, 0] ei slices_S2x1600000_S1x1600000_1_0 (ix2 (0 : Fin 1) e) (ix2 (1 : Fin 2) e) (fun a => match a with
    | ⟨0, _⟩ => by show (1 : ℕ) = 1 + 0; omega
    | ⟨1, _⟩ => by show e.val = 0 + e.val; omega)

/-- A vector of index words as an [E, 1] index column. -/
def idxCol (v : IVec S1600000 32) : IVec S1600000x1 32 := broadcastInDim S1600000x1 ![0] bcast_S1600000_S1600000x1_0 v

theorem idxCol_apply (v : IVec S1600000 32) (e : Fin 1600000) : idxCol v (ix2 e (0 : Fin 1)) = v (ix1 e) :=
  broadcastInDim_apply _ bcast_S1600000_S1600000x1_0 v (ix2 e (0 : Fin 1)) (ix1 e) (fun a => match a with
    | ⟨0, _⟩ => by show e.val = if (1600000 : Nat) = 1 then 0 else e.val; rw [if_neg (by decide)])

/-! ## The inverse square-root degree -/

/-- A scalar float word spread over a vector of 100000, resp. 1600000, entries. -/
def splatN (w : BitVec 32) : FVec Ideal S100000 .f32 := broadcastInDim S100000 ![] bcast_S_S100000 (constant (F := Ideal) S_ .f32 w)
def splatE (w : BitVec 32) : FVec Ideal S1600000 .f32 := broadcastInDim S1600000 ![] bcast_S_S1600000 (constant (F := Ideal) S_ .f32 w)

theorem splatN_apply (w : BitVec 32) (i : S100000.Idx) : splatN w i = Ideal.ofBits .f32 w :=
  broadcastInDim_apply _ bcast_S_S100000 _ i ix0 (fun a => a.elim0)
theorem splatE_apply (w : BitVec 32) (i : S1600000.Idx) : splatE w i = Ideal.ofBits .f32 w :=
  broadcastInDim_apply _ bcast_S_S1600000 _ i ix0 (fun a => a.elim0)

/-- The host's inverse square root, entry by entry. -/
theorem hostRsqrt_apply {s : Shape} (v : FVec Ideal s .f32) (i : s.Idx) : Host.rsqrt v i = Ideal.rsqrt (v i) := rfl

/-- The factor vector: rsqrt (max (count + 1) 1), the count an accumulating scatter of ones by destination. -/
def dinvVec (dstv : IVec S1600000 32) : FVec Ideal S100000 .f32 :=
  Host.rsqrt (maximumf (addf (Host.scatterAdd scatter_S100000_S1600000x1_S1600000_n_0_0_1 (splatN 0x00000000#32) (idxCol dstv)
    (splatE 0x3F800000#32)) (splatN 0x3F800000#32)) (splatN 0x3F800000#32))

theorem dinvVec_apply (ei : IVec S2x1600000 32) (i : Fin 100000) : dinvVec (dstVec ei) (ix1 i) = Cert.Spec.dinvK ei i := by
  unfold dinvVec Cert.Spec.dinvK Cert.Spec.degK Cert.Spec.cnt
  refine (hostRsqrt_apply _ _).trans ?_
  refine congrArg Ideal.rsqrt ?_
  refine (maximumf_apply _ _ _).trans ?_
  refine congrArg₂ max ?_ (splatN_apply _ _)
  refine (addf_apply _ _ _).trans ?_
  refine congrArg₂ (· + ·) ?_ (splatN_apply _ _)
  refine (Cert.LibScatterRows.scatterAdd_scalars_apply (n := 100000) (E := 1600000) scatter_S100000_S1600000x1_S1600000_n_0_0_1.wf
    (splatN 0x00000000#32) (idxCol (dstVec ei)) (splatE 0x3F800000#32) i).trans ?_
  rw [splatN_apply, Ideal.ofBits_zero_f32, zero_add]
  refine Finset.sum_congr rfl fun e _ => ?_
  rw [idxCol_apply, dstVec_apply, splatE_apply]

/-- The factor as a column [100000, 1]. -/
def dinvCol (dstv : IVec S1600000 32) : FVec Ideal S100000x1 .f32 := shapeCast S100000x1 (dinvVec dstv) shapeCasts_S100000_S100000x1

theorem dinvCol_apply (ei : IVec S2x1600000 32) (i : Fin 100000) :
    dinvCol (dstVec ei) (ix2 i (0 : Fin 1)) = Cert.Spec.dinvK ei i :=
  (shapeCast_a_a1_apply _ shapeCasts_S100000_S100000x1 i 0).trans (dinvVec_apply ei i)

/-! ## Gathering at the sources, scattering to the destinations -/

/-- Negative index words counted from the end, entry by entry. -/
def wrapVec (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

theorem wrapVec_apply (v : IVec S1600000 32) (e : Fin 1600000) : wrapVec v (ix1 e) = Cert.Spec.wrap (v (ix1 e)) := by
  unfold wrapVec Cert.Spec.wrap
  show Scalar.select (IntOp.cmpi .slt (v (ix1 e)) (broadcastInDim S1600000 ![] bcast_S_S1600000 (constantI S_ 32 0#32) (ix1 e)))
    (IntOp.addi (v (ix1 e)) (broadcastInDim S1600000 ![] bcast_S_S1600000 (constantI S_ 32 100000#32) (ix1 e))) (v (ix1 e)) = _
  rw [broadcastInDim_apply _ bcast_S_S1600000 (constantI S_ 32 0#32) (ix1 e) ix0 (fun a => a.elim0),
    broadcastInDim_apply _ bcast_S_S1600000 (constantI S_ 32 100000#32) (ix1 e) ix0 (fun a => a.elim0)]
  rfl

/-- The scaled features gathered at the edges' sources and summed at their destinations. -/
def collectedArr (h : FVec Ideal S100000x128 .bf16) (srcv dstv : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32)) (idxCol dstv)
    (extf .f32 (Host.gather gather_S100000x128_S1600000x1_S1600000x128_1_0_n_n_0_1_1128 h (idxCol (wrapVec srcv))) bitsLt_bf16_f32)

theorem collectedArr_apply (h : FVec Ideal S100000x128 .bf16) (ei : IVec S2x1600000 32) (i : Fin 100000) (k : Fin 128) :
    collectedArr h (srcVec ei) (dstVec ei) (ix2 i k)
      = ∑ e : Fin 1600000, if (Cert.Spec.dst ei e).toInt = (i.val : ℤ) then h (ix2 (Cert.Spec.pick (Cert.Spec.wrap (Cert.Spec.src ei e))) k) else 0 := by
  unfold collectedArr
  refine (Cert.LibScatterRows.scatterAdd_rows_apply (n := 100000) (E := 1600000) (D := 128) scatter_S100000x128_S1600000x1_S1600000x128_1_0_0_1.wf
    _ (idxCol (dstVec ei)) _ i k).trans ?_
  rw [broadcastInDim_apply _ bcast_S_S100000x128 _ (ix2 i k) ix0 (fun a => a.elim0)]
  show Ideal.ofBits .f32 0x00000000#32 + _ = _
  rw [Ideal.ofBits_zero_f32, zero_add]
  refine Finset.sum_congr rfl fun e _ => ?_
  rw [idxCol_apply, dstVec_apply]
  refine if_congr Iff.rfl ?_ rfl
  refine (extf_apply (ψ := .f32) _ bitsLt_bf16_f32 _).trans ?_
  refine (Cert.LibGatherRows.gather_rows_apply (n := 100000) (E := 1600000) (D := 128) (by decide)
    gather_S100000x128_S1600000x1_S1600000x128_1_0_n_n_0_1_1128.wf h (idxCol (wrapVec (srcVec ei))) e k).trans ?_
  refine congrArg (fun r : Fin 100000 => h (ix2 r k)) (Fin.ext ?_)
  show min (idxCol (wrapVec (srcVec ei)) (ix2 e (0 : Fin 1))).toInt.toNat (100000 - 1) = min (Cert.Spec.wrap (Cert.Spec.src ei e)).toInt.toNat 99999
  rw [idxCol_apply, wrapVec_apply, srcVec_apply]

end Cert.KernelIdeal.KHost

end
-- ==== Proof.KHostRun.lean ====
/-
  What the two-kernel program's buffers hold at each boundary of its run — before the first kernel, between the two,
  and at the second kernel's entry — at the buffers the kernels read, on the exact extended reals; and with them the
  program's result array as the specification's first arrangement.
-/
import proofs.«130602_j35201551958714_2_alg».proof.Proof.Gen.KernelIdeal.Frame
import proofs.«130602_j35201551958714_2_alg».proof.Proof.KHostOps

noncomputable section

namespace Cert.KernelIdeal.KHost

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx Idealize.SL.Sem

variable (m : (ℓ : Loc nD τ sig) → Buf (Elt Ideal) ℓ) (ρ : Dev nD → PrngReg)

/-! ## Before the first kernel -/

theorem W1_v1 (c : Dev nD) :
    (W1 m ρ c (Proc.devRef .tc main_v1) : S1600000.Idx → BitVec 32) = srcVec (m ((c : Thread nD τ).loc main_arg1)) := by
  dsimp only [W1, hostOps0]; after_results; rfl

theorem W1_v3 (c : Dev nD) :
    (W1 m ρ c (Proc.devRef .tc main_v3) : S1600000.Idx → BitVec 32) = dstVec (m ((c : Thread nD τ).loc main_arg1)) := by
  dsimp only [W1, hostOps0]; after_results; rfl

theorem W1_v13 (c : Dev nD) :
    (W1 m ρ c (Proc.devRef .tc main_v13) : S100000x1.Idx → EReal) = dinvCol (dstVec (m ((c : Thread nD τ).loc main_arg1))) := by
  dsimp only [W1, hostOps0]; after_results; rfl

theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem W1_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem W1_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-! ## Between the kernels: the first kernel's arrays at what it leaves, everything else as before it -/

theorem W2_v1 (c : Dev nD) : W2 m ρ c (Proc.devRef .tc main_v1) = W1 m ρ c (Proc.devRef .tc main_v1) := W2_of_ne m ρ c main_v1 (by decide)
theorem W2_v3 (c : Dev nD) : W2 m ρ c (Proc.devRef .tc main_v3) = W1 m ρ c (Proc.devRef .tc main_v3) := W2_of_ne m ρ c main_v3 (by decide)
theorem W2_arg3 (c : Dev nD) : W2 m ρ c (Proc.devRef .tc main_arg3) = W1 m ρ c (Proc.devRef .tc main_arg3) := W2_of_ne m ρ c main_arg3 (by decide)

/-- The factor column is an input of the first kernel: it leaves it as it found it. -/
theorem W2_v13 (c : Dev nD) : W2 m ρ c (Proc.devRef .tc main_v13) = W1 m ρ c (Proc.devRef .tc main_v13) :=
  (W2_arr m ρ c 2).trans (((dat0 (V1 m ρ) c).arrAt_in 2 rfl _).trans (A_eq0 (V1 m ρ) c 2))

/-- The first kernel's output array. -/
theorem W2_v14 (c : Dev nD) : W2 m ρ c (Proc.devRef .tc main_v14) = (dat0 (V1 m ρ) c).arrAt 3 cfg0.N := W2_arr m ρ c 3

/-! ## At the second kernel's entry -/

theorem W3_v25 (c : Dev nD) :
    (W3 m ρ c (Proc.devRef .tc main_v25) : S100000x128.Idx → EReal)
      = collectedArr (W2 m ρ c (Proc.devRef .tc main_v14)) (W2 m ρ c (Proc.devRef .tc main_v1)) (W2 m ρ c (Proc.devRef .tc main_v3)) := by
  dsimp only [W3, hostOps1]; after_results; rfl

/-- The scaled features read in the wider format (the same numbers). -/
def widened (h : FVec Ideal S100000x128 .bf16) : FVec Ideal S100000x128 .f32 := extf .f32 h Facts₀.bitsLt_bf16_f32
/-- The bias as a one-row matrix. -/
def biasRow (b : FVec Ideal S128 .f32) : FVec Ideal S1x128 .f32 := shapeCast S1x128 b Facts₀.shapeCasts_S128_S1x128

theorem W3_v26 (c : Dev nD) :
    (W3 m ρ c (Proc.devRef .tc main_v26) : S100000x128.Idx → EReal) = widened (W2 m ρ c (Proc.devRef .tc main_v14)) := by
  dsimp only [W3, hostOps1]; after_results; rfl

theorem W3_v27 (c : Dev nD) :
    (W3 m ρ c (Proc.devRef .tc main_v27) : S1x128.Idx → EReal) = biasRow (W2 m ρ c (Proc.devRef .tc main_arg3)) := by
  dsimp only [W3, hostOps1]; after_results; rfl

theorem W3_v13 (c : Dev nD) : W3 m ρ c (Proc.devRef .tc main_v13) = W2 m ρ c (Proc.devRef .tc main_v13) :=
  StableHlo.after_of_forall_not_mem (b := Proc.devRef .tc main_v13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.KHost

end
-- ==== Proof.LibPlainProduct.lean ====
/-
  The plain matrix product at the exact extended reals, read at an index given by coordinates.
  For dimension numbers that contract the left operand's axis 1 with the right operand's axis 0 (no batch axes),
  the contraction sum of an `[M, K]` by `[K, N]` product at `(p, q)` is `∑ k, l (p, k) * r (k, q)` over the `K`
  coordinates of the shared axis — for the matrix unit's product into a zero accumulator and for the host's
  `dot_general` alike. General in the three extents and in the operands' formats.
-/
import Idealize.ShloMosaic.Lib.ValueIdx
import Idealize.ShloMosaic.PureOps.Ideal.Laws

namespace Idealize.ShloMosaic.ValueIdx

open Idealize.ShloMosaic

/-- The left operand's row coordinate of a plain product is the result's row, whatever the contraction index. -/
theorem plain_lhsIdx_row {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).lhsIdx j k 0).val = (j 0).val := by
  unfold DotDims.lhsIdx
  rw [dif_neg List.not_mem_nil, dif_pos (List.mem_singleton.mpr rfl)]
  rfl

/-- The right operand's column coordinate of a plain product is the result's column, whatever the contraction index. -/
theorem plain_rhsIdx_col {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).rhsIdx j k 1).val = (j 1).val := by
  unfold DotDims.rhsIdx
  rw [dif_neg List.not_mem_nil, dif_pos (List.mem_singleton.mpr rfl)]
  rfl

/-- The contraction sum of a plain product, re-indexed by the shared axis's coordinate. -/
theorem plain_contr_sum {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 (⟨[1], [0], [0], [1], [], [], wf⟩ : DotDims ⟨2, ![M, K]⟩ ⟨2, ![K, N]⟩ ⟨2, ![M, N]⟩) K rfl rfl).symm k) = ix2 p k :=
    funext fun a => Fin.ext (by
      match a with
      | ⟨0, _⟩ => exact plain_lhsIdx_row wf _ _
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 (⟨[1], [0], [0], [1], [], [], wf⟩ : DotDims ⟨2, ![M, K]⟩ ⟨2, ![K, N]⟩ ⟨2, ![M, N]⟩) K rfl rfl).symm k) = ix2 k q :=
    funext fun a => Fin.ext (by
      match a with
      | ⟨0, _⟩ => exact (DotDims.rhsIdx_val_of_single _ rfl _ _).trans hk
      | ⟨1, _⟩ => exact plain_rhsIdx_col wf _ _)
  rw [el, er]

/-- The matrix unit's plain product into a zero accumulator, at `(p, q)`. -/
theorem matmul_zero_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact plain_contr_sum d hlc hrc hln hrn hlb hrb l r p q

/-- The host's plain `dot_general`, at `(p, q)`. -/
theorem dotGeneral_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact plain_contr_sum d hlc hrc hln hrn hlb hrb l r p q

end Idealize.ShloMosaic.ValueIdx
-- ==== Proof.LibColumnBroadcast.lean ====
/-
  A column broadcast over many columns, read at an index: a `[a, 1]` array broadcast to `[a, b]` reads, at `(p, c)`, the
  operand's row `p` at its one column. (The companion of the library's row form `broadcastTo_1b_ab_apply`; extents general.)
-/
import Idealize.ShloMosaic.Lib.ValueLayout

namespace Idealize.ShloMosaic.ValueIdx

open Idealize.ShloMosaic

variable {α : Type}

/-- A `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KBody.lean ====
/-
  The two kernel bodies at the exact extended reals, read at an index of the output block.

  The first body multiplies a block of 5000 rows of x by W on the matrix unit and scales every row by that row's factor;
  the second adds two blocks, scales by the row factor, adds the bias row, and applies the per-row min-max scaling and
  normalisation of the specification.
-/
import proofs.«130602_j35201551958714_2_alg».proof.Proof.Gen.KernelIdeal.Frame
import proofs.«130602_j35201551958714_2_alg».proof.Proof.Spec
import proofs.«130602_j35201551958714_2_alg».proof.Proof.LibPlainProduct
import proofs.«130602_j35201551958714_2_alg».proof.Proof.LibColumnBroadcast
import proofs.«130602_j35201551958714_2_alg».proof.Proof.LibColumnReshape
import Idealize.ShloMosaic.Lib.ValueLayout
import Idealize.ShloMosaic.Lib.Pipeline.Value
import Idealize.ShloMosaic.PureOps.Ideal.Laws

noncomputable section

namespace Cert.KernelIdeal.KBody

open Cert.KernelIdeal Cert.KernelIdeal.Gen Idealize.ShloMosaic Idealize.ShloMosaic.ValueIdx

/-- The unit offsets of a whole-block access. -/
theorem hz2 : (![0, 0] : Fin 2 → Nat) = fun _ => 0 := funext fun a => by fin_cases a <;> rfl

/-- The first body's block at (p, q): row p of the x block times column q of W, times row p's factor. -/
theorem out0_3_apply (x0 : Vec Ideal S5000x256 .f32) (x1 : Vec Ideal S256x128 .f32) (x2 : Vec Ideal S5000x1 .f32)
    (p : Fin 5000) (q : Fin 128) :
    Gen.out0_3 (F := Ideal) x0 x1 x2 (ix2 p q) = (∑ k : Fin 256, x0 (ix2 p k) * x1 (ix2 k q)) * x2 (ix2 p (0 : Fin 1)) := by
  unfold Gen.out0_3
  rw [View.canon_unit_zero hz2]
  simp only [View.ld_unit_zero (S := S5000x256) hz2, View.ld_unit_zero (S := S256x128) hz2, View.ld_unit_zero (S := S5000x1) hz2]
  unfold Gen.k0_pay1
  refine (truncf_apply (ψ := .bf16) _ bitsLt_bf16_f32 _).trans ?_
  refine (mulf_apply _ _ _).trans ?_
  refine congrArg₂ (· * ·) ?_ ?_
  · exact matmul_zero_plain_apply dot_S5000x256_S256x128_S5000x128_1_0_0_1_n_n rfl rfl rfl rfl rfl rfl none _ _ p q
  · refine (broadcastTo_a1_ab_apply _ _ p q).trans ?_
    rw [shapeCast_self, shapeCast_self]

/-! ## The second body: the per-row tail, stage by stage -/

/-- The reduced index p with column k put back is (p, k). -/
theorem lift_row (h : S5000x128.Reduces [1] S5000) (p : Fin 5000) (k : Fin (S5000x128.size 1)) :
    h.lift (ix1 p) k = ix2 p (⟨k.val, k.isLt⟩ : Fin 128) := by
  funext c; apply Fin.ext
  fin_cases c <;> rfl

/-- A row's entries, as the reduction sees them. -/
theorem comp_lift_row (h : S5000x128.Reduces [1] S5000) (a : FVec Ideal S5000x128 .f32) (p : Fin 5000) :
    (a ∘ h.lift (ix1 p)) = fun k : Fin 128 => a (ix2 p k) :=
  funext fun k => congrArg a (lift_row h p k)

/-- A lane minimum from +∞ at row p is the row's minimum. -/
theorem laneMin_apply (a : FVec Ideal S5000x128 .f32) (hφ : FKind.Formats .f32)
    (hacc : (0x7F800000#32 : BitVec 32) = FKind.minimumf.neutral .f32 hφ) (p : Fin 5000) :
    multiReduction .minimumf [1] S5000 a 0x7F800000#32 reduces_S5000x128_S5000 hφ hacc (ix1 p)
      = Cert.Spec.rowMin fun k => a (ix2 p k) := by
  rw [multiReduction_minimumf_eq_fold]
  refine (reduces_S5000x128_S5000.fold_filter_drop_single _ _ a (ix1 p)).trans ?_
  exact congrArg (fun f => Finset.fold min (Ideal.ofBits .f32 0x7F800000#32) f (Finset.univ : Finset (Fin 128)))
    (comp_lift_row reduces_S5000x128_S5000 a p)

/-- A lane maximum from −∞ at row p is the row's maximum. -/
theorem laneMax_apply (a : FVec Ideal S5000x128 .f32) (hφ : FKind.Formats .f32)
    (hacc : (0xFF800000#32 : BitVec 32) = FKind.maximumf.neutral .f32 hφ) (p : Fin 5000) :
    multiReduction .maximumf [1] S5000 a 0xFF800000#32 reduces_S5000x128_S5000 hφ hacc (ix1 p)
      = Cert.Spec.rowMax fun k => a (ix2 p k) := by
  rw [multiReduction_maximumf_eq_fold]
  refine (reduces_S5000x128_S5000.fold_filter_drop_single _ _ a (ix1 p)).trans ?_
  exact congrArg (fun f => Finset.fold max (Ideal.ofBits .f32 0xFF800000#32) f (Finset.univ : Finset (Fin 128)))
    (comp_lift_row reduces_S5000x128_S5000 a p)

/-- A lane sum from zero at row p is the row's sum. -/
theorem laneSum_apply (a : FVec Ideal S5000x128 .f32) (hφ : FKind.Formats .f32)
    (hacc : (0x00000000#32 : BitVec 32) = FKind.add.neutral .f32 hφ) (p : Fin 5000) :
    multiReduction .add [1] S5000 a 0x00000000#32 reduces_S5000x128_S5000 hφ hacc (ix1 p) = ∑ k : Fin 128, a (ix2 p k) := by
  refine (Ideal.multiReduction_add_single a 0x00000000#32 reduces_S5000x128_S5000 hφ hacc (ix1 p)).trans ?_
  exact Finset.sum_congr rfl fun k _ => congrArg a (lift_row reduces_S5000x128_S5000 p k)

/-- The row minimum and maximum as columns [5000, 1]. -/
def minCol (a : FVec Ideal S5000x128 .f32) : FVec Ideal S5000x1 .f32 :=
  shapeCast S5000x1 (multiReduction .minimumf [1] S5000 a 0x7F800000#32 reduces_S5000x128_S5000 (.inl rfl) rfl) shapeCasts_S5000_S5000x1
def maxCol (a : FVec Ideal S5000x128 .f32) : FVec Ideal S5000x1 .f32 :=
  shapeCast S5000x1 (multiReduction .maximumf [1] S5000 a 0xFF800000#32 reduces_S5000x128_S5000 (.inl rfl) rfl) shapeCasts_S5000_S5000x1

theorem minCol_apply (a : FVec Ideal S5000x128 .f32) (p : Fin 5000) :
    minCol a (ix2 p (0 : Fin 1)) = Cert.Spec.rowMin fun k => a (ix2 p k) :=
  (shapeCast_a_a1_apply _ shapeCasts_S5000_S5000x1 p 0).trans (laneMin_apply a _ _ p)
theorem maxCol_apply (a : FVec Ideal S5000x128 .f32) (p : Fin 5000) :
    maxCol a (ix2 p (0 : Fin 1)) = Cert.Spec.rowMax fun k => a (ix2 p k) :=
  (shapeCast_a_a1_apply _ shapeCasts_S5000_S5000x1 p 0).trans (laneMax_apply a _ _ p)

/-- The min-max scaled block. -/
def scaledBlk (a : FVec Ideal S5000x128 .f32) : FVec Ideal S5000x128 .f32 :=
  divf (subf a (broadcastTo S5000x128 (minCol a) broadcasts_S5000x1_S5000x128))
    (broadcastTo S5000x128 (subf (maxCol a) (minCol a)) broadcasts_S5000x1_S5000x128)

theorem scaledBlk_apply (a : FVec Ideal S5000x128 .f32) (p : Fin 5000) (q : Fin 128) :
    scaledBlk a (ix2 p q) = Cert.Spec.scaledRow (fun k => a (ix2 p k)) q := by
  unfold scaledBlk Cert.Spec.scaledRow
  refine (divf_apply _ _ _).trans ?_
  refine congrArg₂ Ideal.div ?_ ?_
  · refine (subf_apply _ _ _).trans ?_
    refine congrArg (a (ix2 p q) - ·) ?_
    exact (broadcastTo_a1_ab_apply _ _ p q).trans (minCol_apply a p)
  · refine (broadcastTo_a1_ab_apply _ _ p q).trans ?_
    refine (subf_apply _ _ _).trans ?_
    exact congrArg₂ (· - ·) (maxCol_apply a p) (minCol_apply a p)

/-- The clamped norm as a column. -/
def normCol (a : FVec Ideal S5000x128 .f32) : FVec Ideal S5000x1 .f32 :=
  maximumf (sqrt (shapeCast S5000x1 (multiReduction .add [1] S5000 (mulf (scaledBlk a) (scaledBlk a)) 0x00000000#32
      reduces_S5000x128_S5000 (.inl rfl) rfl) shapeCasts_S5000_S5000x1))
    (broadcast S5000x1 (Scalar.ofBits .f32 0x2B8CBCCC#32))

theorem normCol_apply (a : FVec Ideal S5000x128 .f32) (p : Fin 5000) :
    normCol a (ix2 p (0 : Fin 1)) = Cert.Spec.rowNorm fun k => a (ix2 p k) := by
  unfold normCol Cert.Spec.rowNorm
  refine (maximumf_apply _ _ _).trans ?_
  refine congrArg₂ max ?_ rfl
  show Ideal.sqrt _ = Ideal.sqrt _
  refine congrArg Ideal.sqrt ?_
  refine (shapeCast_a_a1_apply _ shapeCasts_S5000_S5000x1 p 0).trans ?_
  refine (laneSum_apply _ _ _ p).trans ?_
  refine Finset.sum_congr rfl fun k _ => ?_
  refine (mulf_apply _ _ _).trans ?_
  rw [scaledBlk_apply]

/-- The whole tail on a block. -/
def tailBlk (a : FVec Ideal S5000x128 .f32) : FVec Ideal S5000x128 .f32 :=
  divf (scaledBlk a) (broadcastTo S5000x128 (normCol a) broadcasts_S5000x1_S5000x128)

theorem tailBlk_apply (a : FVec Ideal S5000x128 .f32) (p : Fin 5000) (q : Fin 128) :
    tailBlk a (ix2 p q) = Cert.Spec.rowTail (fun k => a (ix2 p k)) q := by
  unfold tailBlk Cert.Spec.rowTail
  refine (divf_apply _ _ _).trans ?_
  refine congrArg₂ Ideal.div (scaledBlk_apply a p q) ?_
  exact (broadcastTo_a1_ab_apply _ _ p q).trans (normCol_apply a p)

/-- The row the tail is applied to: (s + h) · factor + bias. -/
def combined (v0 : Vec Ideal S5000x1 .f32) (v4 : Vec Ideal S1x128 .f32) (v8 v10 : Vec Ideal S5000x128 .f32) : FVec Ideal S5000x128 .f32 :=
  addf (mulf (addf (shapeCast S5000x128 v8 shapeCasts_S5000x128_S5000x128) (shapeCast S5000x128 v10 shapeCasts_S5000x128_S5000x128))
      (broadcastTo S5000x128 (shapeCast S5000x1 (shapeCast S5000x1 v0 shapeCasts_S5000x1_S5000x1) shapeCasts_S5000x1_S5000x1) broadcasts_S5000x1_S5000x128))
    (broadcastTo S5000x128 (shapeCast S1x128 (shapeCast S1x128 v4 shapeCasts_S1x128_S1x128) shapeCasts_S1x128_S1x128) broadcasts_S1x128_S5000x128)

theorem combined_apply (v0 : Vec Ideal S5000x1 .f32) (v4 : Vec Ideal S1x128 .f32) (v8 v10 : Vec Ideal S5000x128 .f32) (p : Fin 5000) (k : Fin 128) :
    combined v0 v4 v8 v10 (ix2 p k) = (v8 (ix2 p k) + v10 (ix2 p k)) * v0 (ix2 p (0 : Fin 1)) + v4 (ix2 (0 : Fin 1) k) := by
  unfold combined
  simp only [shapeCast_self]
  refine (addf_apply _ _ _).trans ?_
  refine congrArg₂ (· + ·) ?_ (broadcastTo_1b_ab_apply _ _ p k)
  refine (mulf_apply _ _ _).trans ?_
  exact congrArg₂ (· * ·) (addf_apply _ _ _) (broadcastTo_a1_ab_apply _ _ p k)

/-- The body's arithmetic is the tail of the combined block. -/
theorem k1_pay1_eq (v0 : Vec Ideal S5000x1 .f32) (v4 : Vec Ideal S1x128 .f32) (v8 v10 : Vec Ideal S5000x128 .f32) :
    Gen.k1_pay1 (F := Ideal) v0 v4 v8 v10 = tailBlk (combined v0 v4 v8 v10) := rfl

/-- The second body's block at (p, q): the per-row tail of the row (s + h) · factor + bias. -/
theorem out1_4_apply (x0 x1 : Vec Ideal S5000x128 .f32) (x2 : Vec Ideal S5000x1 .f32) (x3 : Vec Ideal S1x128 .f32)
    (p : Fin 5000) (q : Fin 128) :
    Gen.out1_4 (F := Ideal) x0 x1 x2 x3 (ix2 p q)
      = Cert.Spec.rowTail (fun k => (x0 (ix2 p k) + x1 (ix2 p k)) * x2 (ix2 p (0 : Fin 1)) + x3 (ix2 (0 : Fin 1) k)) q := by
  unfold Gen.out1_4
  rw [View.canon_unit_zero hz2]
  simp only [View.ld_unit_zero (S := S5000x128) hz2, View.ld_unit_zero (S := S1x128) hz2, View.ld_unit_zero (S := S5000x1) hz2]
  rw [k1_pay1_eq]
  refine (tailBlk_apply _ p q).trans ?_
  exact congrArg (fun A => Cert.Spec.rowTail A q) (funext fun k => combined_apply x2 x3 x0 x1 p k)

end Cert.KernelIdeal.KBody

end
-- ==== Proof.KBlocks0.lean ====
/- The first kernel region's output array as ONE function of the arrays the region reads, whatever they hold at entry:
   entry (r, q) is row r of the feature array times column q of the weight array, scaled by row r's factor. Each of the
   20 grid points writes back the block of 5000 rows it computed from the blocks it was handed; a block read at a
   coordinate is the array read at block index × block size + the coordinate; the 20 blocks cover all 100000 rows. -/
import proofs.«130602_j35201551958714_2_alg».proof.Proof.Gen.KernelIdeal.Frame
import proofs.«130602_j35201551958714_2_alg».proof.Proof.KBody
import Idealize.ShloMosaic.Lib.Pipeline.Value
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The scaled product, index by index: (∑ₖ a0[r, k] · a1[k, q]) · a2[r, 0]. -/
abbrev prodScaled (a0 : S100000x256.Idx → EReal) (a1 : S256x128.Idx → EReal) (a2 : S100000x1.Idx → EReal) :
    S100000x128.Idx → EReal :=
  fun j => (∑ k : Fin 256, a0 (ix2 (j 0) k) * a1 (ix2 k (j 1))) * a2 (ix2 (j 0) (0 : Fin 1))

/-- The scaled product read at row r, column q. -/
theorem prodScaled_apply (a0 : S100000x256.Idx → EReal) (a1 : S256x128.Idx → EReal) (a2 : S100000x1.Idx → EReal)
    (r : Fin 100000) (q : Fin 128) :
    prodScaled a0 a1 a2 (ix2 r q) = (∑ k : Fin 256, a0 (ix2 r k) * a1 (ix2 k q)) * a2 (ix2 r (0 : Fin 1)) := rfl

/-- The block indices over the grid: the row-blocked windows (features, factors, output) sit at block (t, 0), the
    weight window at block (0, 0). -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- One entry of the block a point computes, when its three input blocks are rows of the arrays: the body's entry
    (p, q) is the scaled product at the array's row r. -/
theorem block_at (x0 : Vec Ideal S5000x256 .f32) (x1 : Vec Ideal S256x128 .f32) (x2 : Vec Ideal S5000x1 .f32)
    (a0 : S100000x256.Idx → EReal) (a1 : S256x128.Idx → EReal) (a2 : S100000x1.Idx → EReal)
    (r : Fin 100000) (p : Fin 5000) (q : Fin 128)
    (h0 : ∀ k : Fin 256, x0 (ix2 p k) = a0 (ix2 r k))
    (h1 : ∀ k : Fin 256, x1 (ix2 k q) = a1 (ix2 k q))
    (h2 : x2 (ix2 p (0 : Fin 1)) = a2 (ix2 r (0 : Fin 1))) :
    Gen.out0_3 (F := Ideal) x0 x1 x2 (ix2 p q) = prodScaled a0 a1 a2 (ix2 r q) := by
  rw [KBody.out0_3_apply, h2]
  show _ = (∑ k : Fin 256, a0 (ix2 r k) * a1 (ix2 k q)) * a2 (ix2 r (0 : Fin 1))
  congr 1
  exact Finset.sum_congr rfl fun k _ => by rw [h0 k, h1 k]

/-- WHAT POINT t WRITES BACK is block t of the scaled product of the arrays as the region finds them. -/
theorem flushed0_eq (c : Dev nD) (t : Fin cfg0.N) :
    (dat0 (F := Ideal) V c).flushed 3 t
      = ((cfg0.win 3).blk t).view.read (Elt Ideal) (prodScaled (V c main_arg0) (V c main_arg2) (V c main_v13)) := by
  show (cfg0.win 3).cut (grid0.coords t) ((dat0 V c).after 3 t) = _
  rw [after0_3]
  obtain ⟨e00, e01, e10, e11, e20, e21, e30, e31⟩ := blockIndex0 t
  have ht : t.val < 20 := Nat.lt_of_lt_of_eq t.isLt (show cfg0.N = 20 from N_0)
  funext y
  obtain ⟨p, q, rfl⟩ : ∃ (p : Fin 5000) (q : Fin 128), y = ix2 p q := ⟨y 0, y 1, eq_ix2 y⟩
  have hp : p.val < 5000 := p.isLt
  have hr : t.val * 5000 + p.val < 100000 := by omega
  have hemb : ((cfg0.win 3).blk t).view.emb (ix2 p q) = (ix2 (⟨t.val * 5000 + p.val, hr⟩ : Fin 100000) q : S100000x128.Idx) := by
    funext a; apply Fin.ext
    match a with
    | ⟨0, _⟩ => show win0_3.index t (0 : Fin 2) * 5000 + 1 * p.val = t.val * 5000 + p.val; rw [e30]; omega
    | ⟨1, _⟩ => show win0_3.index t (1 : Fin 2) * 128 + 1 * q.val = q.val; rw [e31]; omega
  show out0_3 (iblk0 V c 0 t) (iblk0 V c 1 t) (iblk0 V c 2 t) (ix2 p q)
    = prodScaled (V c main_arg0) (V c main_arg2) (V c main_v13) (((cfg0.win 3).blk t).view.emb (ix2 p q))
  rw [hemb]
  refine block_at (iblk0 V c 0 t) (iblk0 V c 1 t) (iblk0 V c 2 t) _ _ _ ⟨_, hr⟩ p q (fun k => ?_) (fun k => ?_) ?_
  · show V c main_arg0 (((cfg0.win 0).blk t).view.emb (ix2 p k)) = V c main_arg0 (ix2 (⟨t.val * 5000 + p.val, hr⟩ : Fin 100000) k)
    congr 1; funext a; apply Fin.ext
    match a with
    | ⟨0, _⟩ => show win0_0.index t (0 : Fin 2) * 5000 + 1 * p.val = t.val * 5000 + p.val; rw [e00]; omega
    | ⟨1, _⟩ => show win0_0.index t (1 : Fin 2) * 256 + 1 * k.val = k.val; rw [e01]; omega
  · show V c main_arg2 (((cfg0.win 1).blk t).view.emb (ix2 k q)) = V c main_arg2 (ix2 k q)
    congr 1; funext a; apply Fin.ext
    match a with
    | ⟨0, _⟩ => show win0_1.index t (0 : Fin 2) * 256 + 1 * k.val = k.val; rw [e10]; omega
    | ⟨1, _⟩ => show win0_1.index t (1 : Fin 2) * 128 + 1 * q.val = q.val; rw [e11]; omega
  · show V c main_v13 (((cfg0.win 2).blk t).view.emb (ix2 p (0 : Fin 1))) = V c main_v13 (ix2 (⟨t.val * 5000 + p.val, hr⟩ : Fin 100000) (0 : Fin 1))
    congr 1; funext a; apply Fin.ext
    match a with
    | ⟨0, _⟩ => show win0_2.index t (0 : Fin 2) * 5000 + 1 * p.val = t.val * 5000 + p.val; rw [e20]; omega
    | ⟨1, _⟩ => show win0_2.index t (1 : Fin 2) * 1 + 1 * (0 : Fin 1).val = (0 : Fin 1).val; rw [e21]; rfl

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v14).slice (win0_3.rect t)).set ↔ _
  rw [View.set_slice_whole, Rect.mem_set_unit]
  exact Iff.rfl

/-- The 20 blocks cover the array: row r is in the block of point r / 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨e00, e01, e10, e11, e20, e21, e30, e31⟩ := blockIndex0 ⟨(i 0).val / 5000, hlt⟩
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e31]; omega

/-- THE ARRAY after the region: the scaled product of the arrays the region found. -/
theorem arr0 (c : Dev nD) : (Gen.dat0 (F := Ideal) V c).arrAt 3 cfg0.N
    = prodScaled (V c main_arg0) (V c main_arg2) (V c main_v13) :=
  (dat0 (F := Ideal) V c).arrAt_eq_of_cover 3 (prodScaled (V c main_arg0) (V c main_arg2) (V c main_v13))
    (fun t _ => flushed0_eq V c t) cover0

end Cert.KernelIdeal.KValue

end
-- ==== Proof.KBlocks1.lean ====
/- The second kernel region's output array as ONE function of the arrays the region reads, whatever they hold at entry:
   row r of the result is the per-row tail (min-max scaling, then division by the clamped Euclidean norm) of the row
   (s[r, ·] + h[r, ·]) · factor[r] + bias. Each of the 20 grid points writes back the block of 5000 rows it computed from
   the blocks it was handed; a block read at a coordinate is the array read at block index × block size + the coordinate;
   the 20 blocks cover all 100000 rows. -/
import proofs.«130602_j35201551958714_2_alg».proof.Proof.Gen.KernelIdeal.Frame
import proofs.«130602_j35201551958714_2_alg».proof.Proof.Spec
import proofs.«130602_j35201551958714_2_alg».proof.Proof.KBody
import Idealize.ShloMosaic.Lib.Pipeline.Value
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The scaled, biased and normalised rows, index by index: the per-row tail of k ↦ (a0[r, k] + a1[r, k]) · a2[r, 0] + a3[0, k],
    read at column q. -/
abbrev rowsNormed (a0 a1 : S100000x128.Idx → EReal) (a2 : S100000x1.Idx → EReal) (a3 : S1x128.Idx → EReal) :
    S100000x128.Idx → EReal :=
  fun j => Cert.Spec.rowTail (fun k => (a0 (ix2 (j 0) k) + a1 (ix2 (j 0) k)) * a2 (ix2 (j 0) (0 : Fin 1)) + a3 (ix2 (0 : Fin 1) k)) (j 1)

/-- The normalised rows read at row r, column q. -/
theorem rowsNormed_apply (a0 a1 : S100000x128.Idx → EReal) (a2 : S100000x1.Idx → EReal) (a3 : S1x128.Idx → EReal)
    (r : Fin 100000) (q : Fin 128) :
    rowsNormed a0 a1 a2 a3 (ix2 r q)
      = Cert.Spec.rowTail (fun k => (a0 (ix2 r k) + a1 (ix2 r k)) * a2 (ix2 r (0 : Fin 1)) + a3 (ix2 (0 : Fin 1) k)) q := rfl

/-- The block indices over the grid: the row-blocked windows (the two summands, the factors, the output) sit at block
    (t, 0), the bias window at block (0, 0). -/
theorem blockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- One entry of the block a point computes, when its four input blocks are rows of the arrays: the body's entry
    (p, q) is the normalised row r of the arrays at column q. -/
theorem block_at1 (x0 x1 : Vec Ideal S5000x128 .f32) (x2 : Vec Ideal S5000x1 .f32) (x3 : Vec Ideal S1x128 .f32)
    (a0 a1 : S100000x128.Idx → EReal) (a2 : S100000x1.Idx → EReal) (a3 : S1x128.Idx → EReal)
    (r : Fin 100000) (p : Fin 5000) (q : Fin 128)
    (h0 : ∀ k : Fin 128, x0 (ix2 p k) = a0 (ix2 r k))
    (h1 : ∀ k : Fin 128, x1 (ix2 p k) = a1 (ix2 r k))
    (h2 : x2 (ix2 p (0 : Fin 1)) = a2 (ix2 r (0 : Fin 1)))
    (h3 : ∀ k : Fin 128, x3 (ix2 (0 : Fin 1) k) = a3 (ix2 (0 : Fin 1) k)) :
    Gen.out1_4 (F := Ideal) x0 x1 x2 x3 (ix2 p q) = rowsNormed a0 a1 a2 a3 (ix2 r q) := by
  rw [KBody.out1_4_apply, h2, rowsNormed_apply]
  congr 1
  funext k
  rw [h0 k, h1 k, h3 k]

/-- WHAT POINT t WRITES BACK is block t of the normalised rows of the arrays as the region finds them. -/
theorem flushed1_eq (c : Dev nD) (t : Fin cfg1.N) :
    (dat1 (F := Ideal) V c).flushed 4 t
      = ((cfg1.win 4).blk t).view.read (Elt Ideal) (rowsNormed (V c main_v25) (V c main_v26) (V c main_v13) (V c main_v27)) := by
  show (cfg1.win 4).cut (grid1.coords t) ((dat1 V c).after 4 t) = _
  rw [after1_4]
  obtain ⟨e00, e01, e10, e11, e20, e21, e30, e31, e40, e41⟩ := blockIndex1 t
  have ht : t.val < 20 := Nat.lt_of_lt_of_eq t.isLt (show cfg1.N = 20 from N_1)
  funext y
  obtain ⟨p, q, rfl⟩ : ∃ (p : Fin 5000) (q : Fin 128), y = ix2 p q := ⟨y 0, y 1, eq_ix2 y⟩
  have hp : p.val < 5000 := p.isLt
  have hr : t.val * 5000 + p.val < 100000 := by omega
  have hemb : ((cfg1.win 4).blk t).view.emb (ix2 p q) = (ix2 (⟨t.val * 5000 + p.val, hr⟩ : Fin 100000) q : S100000x128.Idx) := by
    funext a; apply Fin.ext
    match a with
    | ⟨0, _⟩ => show win1_4.index t (0 : Fin 2) * 5000 + 1 * p.val = t.val * 5000 + p.val; rw [e40]; omega
    | ⟨1, _⟩ => show win1_4.index t (1 : Fin 2) * 128 + 1 * q.val = q.val; rw [e41]; omega
  show out1_4 (iblk1 V c 0 t) (iblk1 V c 1 t) (iblk1 V c 2 t) (iblk1 V c 3 t) (ix2 p q)
    = rowsNormed (V c main_v25) (V c main_v26) (V c main_v13) (V c main_v27) (((cfg1.win 4).blk t).view.emb (ix2 p q))
  rw [hemb]
  refine block_at1 (iblk1 V c 0 t) (iblk1 V c 1 t) (iblk1 V c 2 t) (iblk1 V c 3 t) _ _ _ _ ⟨_, hr⟩ p q
    (fun k => ?_) (fun k => ?_) ?_ (fun k => ?_)
  · show V c main_v25 (((cfg1.win 0).blk t).view.emb (ix2 p k)) = V c main_v25 (ix2 (⟨t.val * 5000 + p.val, hr⟩ : Fin 100000) k)
    congr 1; funext a; apply Fin.ext
    match a with
    | ⟨0, _⟩ => show win1_0.index t (0 : Fin 2) * 5000 + 1 * p.val = t.val * 5000 + p.val; rw [e00]; omega
    | ⟨1, _⟩ => show win1_0.index t (1 : Fin 2) * 128 + 1 * k.val = k.val; rw [e01]; omega
  · show V c main_v26 (((cfg1.win 1).blk t).view.emb (ix2 p k)) = V c main_v26 (ix2 (⟨t.val * 5000 + p.val, hr⟩ : Fin 100000) k)
    congr 1; funext a; apply Fin.ext
    match a with
    | ⟨0, _⟩ => show win1_1.index t (0 : Fin 2) * 5000 + 1 * p.val = t.val * 5000 + p.val; rw [e10]; omega
    | ⟨1, _⟩ => show win1_1.index t (1 : Fin 2) * 128 + 1 * k.val = k.val; rw [e11]; omega
  · show V c main_v13 (((cfg1.win 2).blk t).view.emb (ix2 p (0 : Fin 1))) = V c main_v13 (ix2 (⟨t.val * 5000 + p.val, hr⟩ : Fin 100000) (0 : Fin 1))
    congr 1; funext a; apply Fin.ext
    match a with
    | ⟨0, _⟩ => show win1_2.index t (0 : Fin 2) * 5000 + 1 * p.val = t.val * 5000 + p.val; rw [e20]; omega
    | ⟨1, _⟩ => show win1_2.index t (1 : Fin 2) * 1 + 1 * (0 : Fin 1).val = (0 : Fin 1).val; rw [e21]; rfl
  · show V c main_v27 (((cfg1.win 3).blk t).view.emb (ix2 (0 : Fin 1) k)) = V c main_v27 (ix2 (0 : Fin 1) k)
    congr 1; funext a; apply Fin.ext
    match a with
    | ⟨0, _⟩ => show win1_3.index t (0 : Fin 2) * 1 + 1 * (0 : Fin 1).val = (0 : Fin 1).val; rw [e30]; rfl
    | ⟨1, _⟩ => show win1_3.index t (1 : Fin 2) * 128 + 1 * k.val = k.val; rw [e31]; omega

/-- An index of the output array is in point t's block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v28).slice (win1_4.rect t)).set ↔ _
  rw [View.set_slice_whole, Rect.mem_set_unit]
  exact Iff.rfl

/-- The 20 blocks cover the array: row r is in the block of point r / 5000. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨e00, e01, e10, e11, e20, e21, e30, e31, e40, e41⟩ := blockIndex1 ⟨(i 0).val / 5000, hlt⟩
  refine ⟨⟨(i 0).val / 5000, hlt⟩, flush1_4 _, ?_⟩
  rw [mem_blk1]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, hlt⟩ (1 : Fin 2) * 128 ≤ (i 1).val
      ∧ (i 1).val < win1_4.index ⟨(i 0).val / 5000, hlt⟩ (1 : Fin 2) * 128 + 128
    rw [e41]; omega

/-- THE ARRAY after the region: the normalised rows of the arrays the region found. -/
theorem arr1 (c : Dev nD) : (Gen.dat1 (F := Ideal) V c).arrAt 4 cfg1.N
    = rowsNormed (V c main_v25) (V c main_v26) (V c main_v13) (V c main_v27) :=
  (dat1 (F := Ideal) V c).arrAt_eq_of_cover 4 (rowsNormed (V c main_v25) (V c main_v26) (V c main_v13) (V c main_v27))
    (fun t _ => flushed1_eq V c t) cover1

end Cert.KernelIdeal.KValue

end
-- ==== Proof.KResult.lean ====
/-
  The two-kernel program's result array, on the exact extended reals, is the specification's first arrangement.

  The second kernel's output array is the per-row tail of (s + h') · factor + bias, where at its entry h' (the first
  kernel's output) is the scaled transformed features, s is h' gathered at the edges' sources and summed at their
  destinations, the factor column is the inverse square-root degree, and the bias row is the bias.
-/
import proofs.«130602_j35201551958714_2_alg».proof.Proof.KHostRun
import proofs.«130602_j35201551958714_2_alg».proof.Proof.KBlocks0
import proofs.«130602_j35201551958714_2_alg».proof.Proof.KBlocks1

noncomputable section

namespace Cert.KernelIdeal.KHost

open Cert.KernelIdeal Cert.KernelIdeal.Gen
open Idealize.ShloMosaic Idealize.ShloMosaic.TcCoe Idealize.ShloMosaic.ValueIdx Idealize.SL.Sem

/-! ## The two kernels' arrays as functions of arrays, against the specification -/

section Arrays

variable (x : S100000x256.Idx → EReal) (ei : IVec S2x1600000 32) (W : S256x128.Idx → EReal) (b : S128.Idx → EReal)

/-- The first kernel's array, when its inputs are x, W and the factor column: the scaled transformed features. -/
theorem prodScaled_spec (a0 : S100000x256.Idx → EReal) (a1 : S256x128.Idx → EReal) (a2 : S100000x1.Idx → EReal)
    (h0 : a0 = x) (h1 : a1 = W) (h2 : a2 = dinvCol (dstVec ei)) (r : Fin 100000) (k : Fin 128) :
    Cert.KernelIdeal.KValue.prodScaled a0 a1 a2 (ix2 r k) = Cert.Spec.scaled x ei W r k := by
  subst h0 h1 h2
  rw [Cert.KernelIdeal.KValue.prodScaled_apply, dinvCol_apply]
  rfl

/-- The second kernel's array, when its inputs are the collected sum of H, H itself, the factor column and the bias
    row, H being the scaled transformed features: the specification's first arrangement. -/
theorem rowsNormed_spec (H : S100000x128.Idx → EReal) (a0 a1 : S100000x128.Idx → EReal) (a2 : S100000x1.Idx → EReal)
    (a3 : S1x128.Idx → EReal) (hH : ∀ (r : Fin 100000) (k : Fin 128), H (ix2 r k) = Cert.Spec.scaled x ei W r k)
    (h0 : a0 = collectedArr H (srcVec ei) (dstVec ei)) (h1 : a1 = widened H) (h2 : a2 = dinvCol (dstVec ei)) (h3 : a3 = biasRow b) :
    Cert.KernelIdeal.KValue.rowsNormed a0 a1 a2 a3 = Cert.Spec.outK x ei W b := by
  subst h0 h1 h2 h3
  funext j
  obtain ⟨r, q, rfl⟩ : ∃ (r : Fin 100000) (q : Fin 128), j = ix2 r q := ⟨j 0, j 1, eq_ix2 j⟩
  rw [Cert.KernelIdeal.KValue.rowsNormed_apply]
  unfold Cert.Spec.outK
  refine congrArg (fun A => Cert.Spec.rowTail A q) (funext fun k => ?_)
  unfold Cert.Spec.aggK Cert.Spec.collected
  refine congrArg₂ (· + ·) (congrArg₂ (· * ·) (congrArg₂ (· + ·) ?_ ?_) (dinvCol_apply ei r)) ?_
  · rw [collectedArr_apply]
    exact Finset.sum_congr rfl fun e _ => if_congr Iff.rfl (hH _ _) rfl
  · exact (extf_apply (ψ := .f32) H Facts₀.bitsLt_bf16_f32 _).trans (hH r k)
  · exact shapeCast_a_1a_apply b Facts₀.shapeCasts_S128_S1x128 0 k

end Arrays

/-! ## At the run's boundaries -/

variable (m : (ℓ : Loc nD τ sig) → Buf (Elt Ideal) ℓ) (ρ : Dev nD → PrngReg)

/-- The first kernel's output array, entry by entry: the scaled transformed features. -/
theorem scaled_at (c : Dev nD) (r : Fin 100000) (k : Fin 128) :
    (W2 m ρ c (Proc.devRef .tc main_v14) : S100000x128.Idx → EReal) (ix2 r k)
      = Cert.Spec.scaled (m ((c : Thread nD τ).loc main_arg0)) (m ((c : Thread nD τ).loc main_arg1)) (m ((c : Thread nD τ).loc main_arg2)) r k := by
  rw [W2_v14, Cert.KernelIdeal.KValue.arr0 (V1 m ρ) c]
  exact prodScaled_spec _ _ _ _ _ _ (W1_arg0 m ρ c) (W1_arg2 m ρ c) (W1_v13 m ρ c) r k

/-- THE RESULT ARRAY is the specification's first arrangement of the arguments. -/
theorem result (c : Dev nD) :
    (W4 m ρ c (Proc.devRef .tc main_v28) : S100000x128.Idx → EReal)
      = Cert.Spec.outK (m ((c : Thread nD τ).loc main_arg0)) (m ((c : Thread nD τ).loc main_arg1))
          (m ((c : Thread nD τ).loc main_arg2)) (m ((c : Thread nD τ).loc main_arg3)) := by
  refine (W4_arr m ρ c 4).trans ?_
  rw [Cert.KernelIdeal.KValue.arr1 (V3 m ρ) c]
  refine rowsNormed_spec _ _ _ _ (W2 m ρ c (Proc.devRef .tc main_v14)) _ _ _ _ (scaled_at m ρ c) ?_ (W3_v26 m ρ c)
    ((W3_v13 m ρ c).trans ((W2_v13 m ρ c).trans (W1_v13 m ρ c))) ?_
  · refine (W3_v25 m ρ c).trans ?_
    rw [W2_v1, W2_v3, W1_v1, W1_v3]
  · refine (W3_v27 m ρ c).trans ?_
    rw [W2_arg3, W1_arg3]

end Cert.KernelIdeal.KHost

end
-- ==== Proof.RefIdx.lean ====
/-
  The index words of the plain program, read at an edge of the extended edge list.

  The program slices the two rows of the edge array, appends the node numbers 0 … 99999 to each (the self loops), and
  before each gather counts a negative word from the end. Read at edge e of the 1700000, the two concatenations are
  the extended source and destination words, and the three wrapped columns are the wrap of those.
-/
import proofs.«130602_j35201551958714_2_alg».proof.Proof.RefRead
import proofs.«130602_j35201551958714_2_alg».proof.Proof.Spec

noncomputable section

namespace Cert.ReferenceIdeal.RefValue

open Cert.ReferenceIdeal Cert.ReferenceIdeal.Gen Cert.ReferenceIdeal.ReadP Idealize.ShloMosaic Idealize.ShloMosaic.ValueIdx Cert.Spec

/-- The sliced and flattened first row of the edge array is the edges' source words. -/
theorem v3_at (x1 : (⟨S2x1600000, .i32⟩ : BufTy).Contents (Elt Ideal)) (e : Fin 1600000) :
    val_main_v3 (F := Ideal) x1 (ix1 e) = src x1 e := by
  rw [val_main_v3_apply, val_main_v2_apply]
  unfold src
  congr 1
  funext a
  match a with
  | ⟨0, _⟩ => rfl
  | ⟨1, _⟩ => exact Fin.ext (Nat.mod_eq_of_lt e.isLt)

/-- The sliced and flattened second row is the edges' destination words. -/
theorem v6_at (x1 : (⟨S2x1600000, .i32⟩ : BufTy).Contents (Elt Ideal)) (e : Fin 1600000) :
    val_main_v6 (F := Ideal) x1 (ix1 e) = dst x1 e := by
  rw [val_main_v6_apply, val_main_v5_apply]
  unfold dst
  congr 1
  funext a
  match a with
  | ⟨0, _⟩ => rfl
  | ⟨1, _⟩ => exact Fin.ext (Nat.mod_eq_of_lt e.isLt)

/-- The first concatenation is the extended list's source word. -/
theorem v4_at (x1 : (⟨S2x1600000, .i32⟩ : BufTy).Contents (Elt Ideal)) (e : Fin 1700000) :
    val_main_v4 (F := Ideal) x1 (ix1 e) = srcR x1 e := by
  unfold val_main_v4 srcR
  by_cases h : e.val < 1600000
  · rw [dif_pos h, ← v3_at]
    exact concatenate_pair_apply_left (t := S1700000) (s₁ := S1600000) (s₂ := S100000) (0 : Fin 1) _ _ _ (ix1 e) rfl (ix1 ⟨e.val, h⟩)
      (fun b => match b with | ⟨0, _⟩ => rfl)
  · rw [dif_neg h]
    refine (concatenate_pair_apply_right (t := S1700000) (s₁ := S1600000) (s₂ := S100000) (0 : Fin 1) _ _ _ (ix1 e) rfl rfl (ix1 ⟨e.val - 1600000, by omega⟩)
      (fun b hb => absurd (Subsingleton.elim _ _) hb) ?_).trans ?_
    · show e.val - 1600000 + 1600000 = e.val
      omega
    · rfl

/-- The second concatenation is the extended list's destination word. -/
theorem v7_at (x1 : (⟨S2x1600000, .i32⟩ : BufTy).Contents (Elt Ideal)) (e : Fin 1700000) :
    val_main_v7 (F := Ideal) x1 (ix1 e) = dstR x1 e := by
  unfold val_main_v7 dstR
  by_cases h : e.val < 1600000
  · rw [dif_pos h, ← v6_at]
    exact concatenate_pair_apply_left (t := S1700000) (s₁ := S1600000) (s₂ := S100000) (0 : Fin 1) _ _ _ (ix1 e) rfl (ix1 ⟨e.val, h⟩)
      (fun b => match b with | ⟨0, _⟩ => rfl)
  · rw [dif_neg h]
    refine (concatenate_pair_apply_right (t := S1700000) (s₁ := S1600000) (s₂ := S100000) (0 : Fin 1) _ _ _ (ix1 e) rfl rfl (ix1 ⟨e.val - 1600000, by omega⟩)
      (fun b hb => absurd (Subsingleton.elim _ _) hb) ?_).trans ?_
    · show e.val - 1600000 + 1600000 = e.val
      omega
    · rfl

/-- An [E, 1] column's row e reads the vector at e. -/
theorem col_idx (e : Fin 1700000) : idx_main_v10 (ix2 e (0 : Fin 1)) = ix1 e := by
  funext a; match a with | ⟨0, _⟩ => rfl

/-- The scatter-index column of the degree count is the destination word. -/
theorem v10_at (x1 : (⟨S2x1600000, .i32⟩ : BufTy).Contents (Elt Ideal)) (e : Fin 1700000) :
    val_main_v10 (F := Ideal) x1 (ix2 e (0 : Fin 1)) = dstR x1 e := by
  rw [val_main_v10_apply, col_idx, v7_at]

/-- The scatter-index column of the row scatter is the destination word. -/
theorem v44_at (x1 : (⟨S2x1600000, .i32⟩ : BufTy).Contents (Elt Ideal)) (e : Fin 1700000) :
    val_main_v44 (F := Ideal) x1 (ix2 e (0 : Fin 1)) = dstR x1 e := by
  rw [val_main_v44_apply]
  exact (congrArg _ (col_idx e)).trans (v7_at x1 e)

/-- The wrapped source column read by the first factor gather. -/
theorem v23_at (x1 : (⟨S2x1600000, .i32⟩ : BufTy).Contents (Elt Ideal)) (e : Fin 1700000) :
    val_main_v23 (F := Ideal) x1 (ix2 e (0 : Fin 1)) = wrap (srcR x1 e) := by
  rw [val_main_v23_apply]
  refine (congrArg _ (col_idx e)).trans ?_
  rw [val_main_v22_apply, val_main_v19_apply, val_main_v21_apply, val_main_v18_apply, val_main_v20_apply, v4_at]
  rfl

/-- The wrapped destination column read by the second factor gather. -/
theorem v30_at (x1 : (⟨S2x1600000, .i32⟩ : BufTy).Contents (Elt Ideal)) (e : Fin 1700000) :
    val_main_v30 (F := Ideal) x1 (ix2 e (0 : Fin 1)) = wrap (dstR x1 e) := by
  rw [val_main_v30_apply]
  refine (congrArg _ (col_idx e)).trans ?_
  rw [val_main_v29_apply, val_main_v26_apply, val_main_v28_apply, val_main_v25_apply, val_main_v27_apply, v7_at]
  rfl

/-- The wrapped source column read by the row gather. -/
theorem v38_at (x1 : (⟨S2x1600000, .i32⟩ : BufTy).Contents (Elt Ideal)) (e : Fin 1700000) :
    val_main_v38 (F := Ideal) x1 (ix2 e (0 : Fin 1)) = wrap (srcR x1 e) := by
  rw [val_main_v38_apply]
  refine (congrArg _ (col_idx e)).trans ?_
  rw [val_main_v37_apply, val_main_v34_apply, val_main_v36_apply, val_main_v33_apply, val_main_v35_apply, v4_at]
  rfl

end Cert.ReferenceIdeal.RefValue

end
-- ==== Proof.RefDeg.lean ====
/-
  The degree count and the two per-edge factors of the plain program, read at an index.

  The degree of node i is the scatter-add of ones over the extended edge list by destination word; its guarded inverse
  square root is the node's factor; the two factor gathers read it at the wrapped, clamped source and destination of
  each edge, and their product is the edge's weight.
-/
import proofs.«130602_j35201551958714_2_alg».proof.Proof.RefRead
import proofs.«130602_j35201551958714_2_alg».proof.Proof.Spec
import proofs.«130602_j35201551958714_2_alg».proof.Proof.RefIdx
import proofs.«130602_j35201551958714_2_alg».proof.Proof.LibScatterRows
import proofs.«130602_j35201551958714_2_alg».proof.Proof.LibGatherRows

noncomputable section

namespace Cert.ReferenceIdeal.RefValue

open Cert.ReferenceIdeal Cert.ReferenceIdeal.Gen Cert.ReferenceIdeal.ReadP Idealize.ShloMosaic Idealize.ShloMosaic.ValueIdx Cert.Spec

/-- The scatter-add of ones is the degree. -/
theorem v11_at (x1 : (⟨S2x1600000, .i32⟩ : BufTy).Contents (Elt Ideal)) (i : Fin 100000) :
    val_main_v11 (F := Ideal) x1 (ix1 i) = degR x1 i := by
  unfold val_main_v11
  refine (Cert.LibScatterRows.scatterAdd_scalars_apply (n := 100000) (E := 1700000) _ (val_main_v9 (F := Ideal))
    (val_main_v10 (F := Ideal) x1) (val_main_v8 (F := Ideal)) i).trans ?_
  rw [val_main_v9_apply, val_main_cst_0_apply, Ideal.ofBits_def, Ideal.ofBits_zero_f32, zero_add]
  unfold degR
  refine Finset.sum_congr rfl fun e _ => ?_
  rw [v10_at, val_main_v8_apply, val_main_cst_apply]
  rfl

/-- The guarded inverse square root of the degree is the node's factor. -/
theorem v17_at (x1 : (⟨S2x1600000, .i32⟩ : BufTy).Contents (Elt Ideal)) (i : Fin 100000) :
    val_main_v17 (F := Ideal) x1 (ix1 i) = dinvR x1 i := by
  rw [val_main_v17_apply, val_main_v13_apply, val_main_v16_apply, val_main_v15_apply, v11_at, val_main_v12_apply,
    val_main_cst_1_apply, val_main_v14_apply, val_main_cst_2_apply, val_main_call0_v1_apply, val_main_call0_v0_apply,
    val_main_cst_3_apply]
  simp only [Ideal.cmpf_def, Ideal.maximumf_def, Ideal.hostUnary_rsqrt_def, Ideal.ofBits_def, Ideal.ofBits_zero_f32]
  rfl

/-- The first factor gather reads the factor of the edge's source node. -/
theorem v24_at (x1 : (⟨S2x1600000, .i32⟩ : BufTy).Contents (Elt Ideal)) (e : Fin 1700000) :
    val_main_v24 (F := Ideal) x1 (ix1 e) = dinvR x1 (pick (wrap (srcR x1 e))) := by
  unfold val_main_v24
  refine (Cert.LibGatherRows.gather_scalars_apply (n := 100000) (E := 1700000) (by decide) _
    (val_main_v17 (F := Ideal) x1) (val_main_v23 (F := Ideal) x1) e).trans ?_
  refine Eq.trans (congrArg (val_main_v17 (F := Ideal) x1) (congrArg (ix1 (n := 100000)) (Fin.ext ?_)))
    (v17_at x1 (pick (wrap (srcR x1 e))))
  show min (val_main_v23 (F := Ideal) x1 (ix2 e (0 : Fin 1))).toInt.toNat (100000 - 1)
    = min (wrap (srcR x1 e)).toInt.toNat 99999
  rw [v23_at]

/-- The second factor gather reads the factor of the edge's destination node. -/
theorem v31_at (x1 : (⟨S2x1600000, .i32⟩ : BufTy).Contents (Elt Ideal)) (e : Fin 1700000) :
    val_main_v31 (F := Ideal) x1 (ix1 e) = dinvR x1 (pick (wrap (dstR x1 e))) := by
  unfold val_main_v31
  refine (Cert.LibGatherRows.gather_scalars_apply (n := 100000) (E := 1700000) (by decide) _
    (val_main_v17 (F := Ideal) x1) (val_main_v30 (F := Ideal) x1) e).trans ?_
  refine Eq.trans (congrArg (val_main_v17 (F := Ideal) x1) (congrArg (ix1 (n := 100000)) (Fin.ext ?_)))
    (v17_at x1 (pick (wrap (dstR x1 e))))
  show min (val_main_v30 (F := Ideal) x1 (ix2 e (0 : Fin 1))).toInt.toNat (100000 - 1)
    = min (wrap (dstR x1 e)).toInt.toNat 99999
  rw [v30_at]

/-- The edge's weight is the product of its two end points' factors. -/
theorem v32_at (x1 : (⟨S2x1600000, .i32⟩ : BufTy).Contents (Elt Ideal)) (e : Fin 1700000) :
    val_main_v32 (F := Ideal) x1 (ix1 e)
      = dinvR x1 (pick (wrap (srcR x1 e))) * dinvR x1 (pick (wrap (dstR x1 e))) := by
  rw [val_main_v32_apply, v24_at, v31_at]
  rfl

end Cert.ReferenceIdeal.RefValue

end
-- ==== Proof.RefAgg.lean ====
/-
  The aggregated features of the plain program, read at an entry.

  The transformed features x W are gathered at each edge's wrapped, clamped source, scaled by the edge's weight,
  scatter-added into the rows named by the destination words, and the bias is added: entry (i, k) is the second
  arrangement of the collected sum.
-/
import proofs.«130602_j35201551958714_2_alg».proof.Proof.RefRead
import proofs.«130602_j35201551958714_2_alg».proof.Proof.Spec
import proofs.«130602_j35201551958714_2_alg».proof.Proof.RefDeg

noncomputable section

namespace Cert.ReferenceIdeal.RefValue

open Cert.ReferenceIdeal Cert.ReferenceIdeal.Gen Cert.ReferenceIdeal.ReadP Idealize.ShloMosaic Idealize.ShloMosaic.ValueIdx Cert.Spec

/-- The matrix product at an entry. -/
theorem v0_at (x0 : (⟨S100000x256, .f32⟩ : BufTy).Contents (Elt Ideal)) (x2 : (⟨S256x128, .f32⟩ : BufTy).Contents (Elt Ideal))
    (i : Fin 100000) (k : Fin 128) : val_main_v0 (F := Ideal) x0 x2 (ix2 i k) = lin x0 x2 i k := by
  rw [val_main_v0_apply]
  unfold lin
  refine Finset.sum_congr rfl fun c _ => ?_
  have hl : lidx_main_v0 (ix2 i k) c = ix2 i c := by
    funext a; match a with | ⟨0, _⟩ => rfl | ⟨1, _⟩ => rfl
  have hr : ridx_main_v0 (ix2 i k) c = ix2 c k := by
    funext a; match a with | ⟨0, _⟩ => rfl | ⟨1, _⟩ => rfl
  rw [hl, hr]

/-- The row gather reads the transformed features of the edge's source node. -/
theorem v39_at (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (e : Fin 1700000) (k : Fin 128) :
    val_main_v39 (F := Ideal) x0 x1 x2 (ix2 e k) = lin x0 x2 (pick (wrap (srcR x1 e))) k := by
  unfold val_main_v39
  refine (Cert.LibGatherRows.gather_rows_apply (n := 100000) (E := 1700000) (D := 128) (by decide) _
    (val_main_v0 (F := Ideal) x0 x2) (val_main_v38 (F := Ideal) x1) e k).trans ?_
  refine Eq.trans (congrArg (val_main_v0 (F := Ideal) x0 x2) (congrArg (fun r : Fin 100000 => ix2 r k) (Fin.ext ?_)))
    (v0_at x0 x2 (pick (wrap (srcR x1 e))) k)
  show min (val_main_v38 (F := Ideal) x1 (ix2 e (0 : Fin 1))).toInt.toNat (100000 - 1)
    = min (wrap (srcR x1 e)).toInt.toNat 99999
  rw [v38_at]

/-- The weight column broadcast along the channels reads the edge's weight. -/
theorem bcast_idx (e : Fin 1700000) (k : Fin 128) : idx_main_v40 (idx_main_v41 (ix2 e k)) = ix1 e := by
  funext a; match a with | ⟨0, _⟩ => rfl

/-- The weighted gathered features. -/
theorem v42_at (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (e : Fin 1700000) (k : Fin 128) :
    val_main_v42 (F := Ideal) x0 x1 x2 (ix2 e k)
      = lin x0 x2 (pick (wrap (srcR x1 e))) k * (dinvR x1 (pick (wrap (srcR x1 e))) * dinvR x1 (pick (wrap (dstR x1 e)))) := by
  rw [val_main_v42_apply, v39_at, val_main_v41_apply, val_main_v40_apply, bcast_idx, v32_at]
  rfl

/-- The row scatter-add at an entry. -/
theorem v45_at (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (i : Fin 100000) (k : Fin 128) :
    val_main_v45 (F := Ideal) x0 x1 x2 (ix2 i k)
      = ∑ e : Fin 1700000, if (dstR x1 e).toInt = (i.val : ℤ)
          then lin x0 x2 (pick (wrap (srcR x1 e))) k * (dinvR x1 (pick (wrap (srcR x1 e))) * dinvR x1 (pick (wrap (dstR x1 e))))
          else 0 := by
  unfold val_main_v45
  refine (Cert.LibScatterRows.scatterAdd_rows_apply (n := 100000) (E := 1700000) (D := 128) _ (val_main_v43 (F := Ideal))
    (val_main_v44 (F := Ideal) x1) (val_main_v42 (F := Ideal) x0 x1 x2) i k).trans ?_
  rw [val_main_v43_apply, val_main_cst_9_apply, Ideal.ofBits_def, Ideal.ofBits_zero_f32, zero_add]
  refine Finset.sum_congr rfl fun e _ => ?_
  rw [v44_at, v42_at]

/-- The bias broadcast to every row reads the bias at the channel. -/
theorem bias_idx (i : Fin 100000) (k : Fin 128) : idx_main_v46 (idx_main_v47 (ix2 i k)) = ix1 k := by
  funext a; match a with | ⟨0, _⟩ => rfl

/-- THE AGGREGATED FEATURES: the scatter-add plus the bias is the second arrangement. -/
theorem v48_at (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (i : Fin 100000) (k : Fin 128) :
    val_main_v48 (F := Ideal) x0 x1 x2 x3 (ix2 i k) = aggR x0 x1 x2 x3 i k := by
  rw [val_main_v48_apply, v45_at, val_main_v47_apply, val_main_v46_apply, bias_idx]
  rfl

end Cert.ReferenceIdeal.RefValue

end
-- ==== Proof.RefTail.lean ====
/-
  The per-row tail of the plain program, read at an entry.

  Every row of the aggregated features is min-max scaled (the row minimum and maximum are folds from +∞ and −∞ over
  the 128 channels) and divided by the scaled row's Euclidean norm, clamped from below. Entry (i, k) of the result
  is the row tail of row i of the aggregated features, at k.
-/
import proofs.«130602_j35201551958714_2_alg».proof.Proof.RefRead
import proofs.«130602_j35201551958714_2_alg».proof.Proof.Spec

noncomputable section

namespace Cert.ReferenceIdeal.RefValue

open Cert.ReferenceIdeal Cert.ReferenceIdeal.Gen Cert.ReferenceIdeal.ReadP Idealize.ShloMosaic Idealize.ShloMosaic.ValueIdx Cert.Spec

/-- Row i of the aggregated features, as the program computes them. -/
abbrev rowA (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (i : Fin 100000) : Fin 128 → EReal := fun k' => val_main_v48 (F := Ideal) x0 x1 x2 x3 (ix2 i k')

/-- Dropping axis 1 of a [100000, 128] array leaves a vector [100000]. -/
theorem hred : S100000x128.Reduces [1] S100000 := by decide

/-- The reduced index i with channel k put back is (i, k). -/
theorem lift_row (h : S100000x128.Reduces [1] S100000) (i : Fin 100000) (k : Fin (S100000x128.size 1)) :
    h.lift (ix1 i) k = ix2 i (⟨k.val, k.isLt⟩ : Fin 128) := by
  funext c; apply Fin.ext
  fin_cases c <;> rfl

/-- From +∞ the minimum reduce over the channels of any [100000, 128] array, at row i, is the row's minimum. -/
theorem reduce_min_row (y : FVec Ideal S100000x128 .f32) (i : Fin 100000) :
    Host.reduce (FloatOps.minimumf (F := Ideal) (φ := .f32)) y (val_main_cst_10 (F := Ideal))
        reducesTo_S100000x128_S100000_d1 h_S_ (ix1 i)
      = rowMin (fun k' => y (ix2 i k')) := by
  refine (Host.reduce_eq_fold_single (s := S100000x128) (t := S100000) (a := (1 : Fin 2))
    (FloatOps.minimumf (F := Ideal) (φ := .f32)) y (val_main_cst_10 (F := Ideal))
    reducesTo_S100000x128_S100000_d1 hred h_S_ (ix1 i)).trans ?_
  have hf : (y ∘ hred.lift (ix1 i)) = fun k' : Fin 128 => y (ix2 i k') :=
    funext fun k => congrArg y (lift_row hred i k)
  exact congrArg (fun f => Finset.fold min (Ideal.ofBits .f32 0x7F800000#32) f (Finset.univ : Finset (Fin 128))) hf

/-- From −∞ the maximum reduce over the channels, at row i, is the row's maximum. -/
theorem reduce_max_row (y : FVec Ideal S100000x128 .f32) (i : Fin 100000) :
    Host.reduce (FloatOps.maximumf (F := Ideal) (φ := .f32)) y (val_main_cst_11 (F := Ideal))
        reducesTo_S100000x128_S100000_d1 h_S_ (ix1 i)
      = rowMax (fun k' => y (ix2 i k')) := by
  refine (Host.reduce_eq_fold_single (s := S100000x128) (t := S100000) (a := (1 : Fin 2))
    (FloatOps.maximumf (F := Ideal) (φ := .f32)) y (val_main_cst_11 (F := Ideal))
    reducesTo_S100000x128_S100000_d1 hred h_S_ (ix1 i)).trans ?_
  have hf : (y ∘ hred.lift (ix1 i)) = fun k' : Fin 128 => y (ix2 i k') :=
    funext fun k => congrArg y (lift_row hred i k)
  exact congrArg (fun f => Finset.fold max (Ideal.ofBits .f32 0xFF800000#32) f (Finset.univ : Finset (Fin 128))) hf

/-- The minimum reduce is the row minimum. -/
theorem v49_at (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal)) (i : Fin 100000) :
    val_main_v49 (F := Ideal) x0 x1 x2 x3 (ix1 i) = rowMin (rowA x0 x1 x2 x3 i) := by
  unfold val_main_v49
  exact reduce_min_row (val_main_v48 (F := Ideal) x0 x1 x2 x3) i

/-- The maximum reduce is the row maximum. -/
theorem v51_at (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal)) (i : Fin 100000) :
    val_main_v51 (F := Ideal) x0 x1 x2 x3 (ix1 i) = rowMax (rowA x0 x1 x2 x3 i) := by
  unfold val_main_v51
  exact reduce_max_row (val_main_v48 (F := Ideal) x0 x1 x2 x3) i

/-- A [100000, 1] column's row i reads the vector at i. -/
theorem col1_idx (i : Fin 100000) : idx_main_v50 (ix2 i (0 : Fin 1)) = ix1 i := by
  funext a; match a with | ⟨0, _⟩ => rfl

/-- A column broadcast along the channels reads the column at the row. -/
theorem row_idx (i : Fin 100000) (k : Fin 128) : idx_main_v53 (ix2 i k) = ix2 i (0 : Fin 1) := by
  funext a; match a with | ⟨0, _⟩ => rfl | ⟨1, _⟩ => rfl

theorem col1_idx' (i : Fin 100000) : idx_main_v52 (ix2 i (0 : Fin 1)) = ix1 i := by
  funext a; match a with | ⟨0, _⟩ => rfl

theorem col1_idx'' (i : Fin 100000) : idx_main_call1_v2 (ix2 i (0 : Fin 1)) = ix1 i := by
  funext a; match a with | ⟨0, _⟩ => rfl

theorem row_idx' (i : Fin 100000) (k : Fin 128) : idx_main_v56 (ix2 i k) = ix2 i (0 : Fin 1) := by
  funext a; match a with | ⟨0, _⟩ => rfl | ⟨1, _⟩ => rfl

theorem row_idx'' (i : Fin 100000) (k : Fin 128) : idx_main_v61 (ix2 i k) = ix2 i (0 : Fin 1) := by
  funext a; match a with | ⟨0, _⟩ => rfl | ⟨1, _⟩ => rfl

/-- The row minimum as a column. -/
theorem v50_at (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal)) (i : Fin 100000) :
    val_main_v50 (F := Ideal) x0 x1 x2 x3 (ix2 i (0 : Fin 1)) = rowMin (rowA x0 x1 x2 x3 i) := by
  rw [val_main_v50_apply, col1_idx, v49_at]

/-- The row maximum as a column. -/
theorem v52_at (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal)) (i : Fin 100000) :
    val_main_v52 (F := Ideal) x0 x1 x2 x3 (ix2 i (0 : Fin 1)) = rowMax (rowA x0 x1 x2 x3 i) := by
  rw [val_main_v52_apply, col1_idx', v51_at]

/-- The min-max scaled entry. -/
theorem v57_at (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal)) (i : Fin 100000) (k : Fin 128) :
    val_main_v57 (F := Ideal) x0 x1 x2 x3 (ix2 i k) = scaledRow (rowA x0 x1 x2 x3 i) k := by
  rw [val_main_v57_apply, val_main_v54_apply, val_main_v53_apply, row_idx, v50_at, val_main_v56_apply]
  rw [row_idx', val_main_v55_apply, v52_at, v50_at]
  rfl

/-- The index of the sum over the channels of row i. -/
theorem sum_idx (i : Fin 100000) (k : Fin 128) : idx_main_call1_v1 (ix1 i) k = ix2 i k := by
  funext a; match a with | ⟨0, _⟩ => rfl | ⟨1, _⟩ => rfl

/-- The clamped Euclidean norm of the scaled row, as a column. -/
theorem v60_at (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal)) (i : Fin 100000) :
    val_main_v60 (F := Ideal) x0 x1 x2 x3 (ix2 i (0 : Fin 1)) = rowNorm (rowA x0 x1 x2 x3 i) := by
  rw [val_main_v60_apply, val_main_v58_apply, val_main_call1_v2_apply]
  rw [col1_idx'', val_main_call1_v1_apply, val_main_call1_cst_apply,
    val_main_v59_apply, val_main_cst_12_apply]
  have hs : (∑ k : Fin 128, val_main_call1_v0 (F := Ideal) x0 x1 x2 x3 (idx_main_call1_v1 (ix1 i) k))
      = ∑ k : Fin 128, scaledRow (rowA x0 x1 x2 x3 i) k * scaledRow (rowA x0 x1 x2 x3 i) k :=
    Finset.sum_congr rfl fun k _ => by
      rw [sum_idx, val_main_call1_v0_apply, v57_at]
      rfl
  rw [hs, Ideal.ofBits_def, Ideal.ofBits_zero_f32, zero_add, Ideal.maximumf_def, Ideal.hostUnary_sqrt_def, Ideal.ofBits_def]
  unfold rowNorm
  exact rfl

/-- THE TAIL: the result's entry (i, k) is the row tail of row i of the aggregated features. -/
theorem v62_at (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal)) (i : Fin 100000) (k : Fin 128) :
    val_main_v62 (F := Ideal) x0 x1 x2 x3 (ix2 i k)
      = rowTail (fun k' => val_main_v48 (F := Ideal) x0 x1 x2 x3 (ix2 i k')) k := by
  rw [val_main_v62_apply, v57_at, val_main_v61_apply]
  rw [row_idx'', v60_at]
  rfl

end Cert.ReferenceIdeal.RefValue

end
-- ==== Proof.RefValue.lean ====
/-
  The plain program's result is the specification's second arrangement.

  Entry (i, k) of the result is the row tail of row i of the aggregated features, and the aggregated features are
  the second arrangement of the collected sum: so the result is `outR`.
-/
import proofs.«130602_j35201551958714_2_alg».proof.Proof.RefRead
import proofs.«130602_j35201551958714_2_alg».proof.Proof.Spec
import proofs.«130602_j35201551958714_2_alg».proof.Proof.RefAgg
import proofs.«130602_j35201551958714_2_alg».proof.Proof.RefTail

noncomputable section

namespace Cert.ReferenceIdeal.RefValue

open Cert.ReferenceIdeal Cert.ReferenceIdeal.Gen Cert.ReferenceIdeal.ReadP Idealize.ShloMosaic Idealize.ShloMosaic.ValueIdx Cert.Spec

/-- THE REFERENCE'S VALUE: the program's result, as a function of its four arguments, is `outR`. -/
theorem ref_value (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal)) :
    Cert.ReferenceIdeal.ReadP.val_main_v62 (F := Ideal) x0 x1 x2 x3 = Cert.Spec.outR x0 x1 x2 x3 := by
  funext j
  obtain ⟨i, k, rfl⟩ : ∃ (i : Fin 100000) (k : Fin 128), j = ix2 i k := ⟨j 0, j 1, eq_ix2 j⟩
  rw [v62_at]
  unfold outR
  have hA : (fun k' : Fin 128 => val_main_v48 (F := Ideal) x0 x1 x2 x3 (ix2 i k'))
      = fun k' : Fin 128 => aggR x0 x1 x2 x3 i k' := funext fun k' => v48_at x0 x1 x2 x3 i k'
  exact congrArg (fun A : Fin 128 → EReal => rowTail A k) hA

end Cert.ReferenceIdeal.RefValue

end
-- ==== Proof.lean ====
/-
  The claim: a graph-convolution layer computed by two kernels around a host gather and scatter-add, against the plain
  program that appends the self loops to the edge list.

  On the exact extended reals both programs end, on every core, at ONE function of the arguments. Each node's
  aggregated features are (∑ over the edges into it of the source's transformed features, weighted by both end points'
  inverse square-root degrees) + its own self-loop term + the bias; the kernels fold the source's factor into the
  features before the edges are collected, add the self loop densely and multiply by the destination's factor once,
  afterwards. The two arrangements agree because that factor is a nonnegative real number (a degree is a count plus
  one), so multiplying by it distributes over a sum of arbitrary extended reals; no finiteness of the inputs is used.
  The per-row tail (min-max scaling, division by the clamped Euclidean norm) is the same on both sides.

  The assembly: the two kernel programs' frames are the imported frame modules'; the reference's frame is its run with
  the result dropped; the kernel program's result array is read through its run's boundaries (Proof/KResult.lean), the
  reference's through its stages (Proof/RefValue.lean), and the two arrangements are joined in Proof/Algebra.lean.
-/
import proofs.«130602_j35201551958714_2_alg».proof.Defs
import proofs.«130602_j35201551958714_2_alg».proof.Proof.Gen.Kernel
import proofs.«130602_j35201551958714_2_alg».proof.Proof.Gen.Kernel.Frame
import proofs.«130602_j35201551958714_2_alg».proof.Proof.Gen.KernelIdeal
import proofs.«130602_j35201551958714_2_alg».proof.Proof.Gen.KernelIdeal.Frame
import proofs.«130602_j35201551958714_2_alg».proof.Proof.Gen.ReferenceIdeal
import proofs.«130602_j35201551958714_2_alg».proof.Proof.Gen.Pre_finite_inputs
import proofs.«130602_j35201551958714_2_alg».proof.Proof.KRun
import proofs.«130602_j35201551958714_2_alg».proof.Proof.RefRead
import proofs.«130602_j35201551958714_2_alg».proof.Proof.Algebra
import proofs.«130602_j35201551958714_2_alg».proof.Proof.KResult
import proofs.«130602_j35201551958714_2_alg».proof.Proof.RefValue
import Idealize.ShloMosaic.Adequacy
import Idealize.ShloMosaic.Init

noncomputable section

namespace Cert.Proof

open Idealize.ShloMosaic Idealize.ShloMosaic.TcCoe Idealize.SL.Sem

/-- What the kernel's value theorem says: the last boundary's contents of the result buffer are the first
    arrangement of the launch memory's four argument arrays. -/
abbrev KernelValue : Prop :=
  ∀ (m : (ℓ : Loc Cert.KernelIdeal.nD Cert.KernelIdeal.τ Cert.KernelIdeal.sig) → Buf (Elt Ideal) ℓ)
    (ρ : Dev Cert.KernelIdeal.nD → PrngReg) (c : Dev Cert.KernelIdeal.nD),
    (Cert.KernelIdeal.Gen.W4 m ρ c (Proc.devRef .tc Cert.KernelIdeal.main_v28) : Cert.KernelIdeal.S100000x128.Idx → EReal)
      = Cert.Spec.outK
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))

/-- What the reference's value theorem says: its last stage is the second arrangement of its four arguments. -/
abbrev ReferenceValue : Prop :=
  ∀ (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S256x128, .f32⟩ : BufTy).Contents (Elt Ideal))
    (x3 : (⟨Cert.ReferenceIdeal.S128, .f32⟩ : BufTy).Contents (Elt Ideal)),
    Cert.ReferenceIdeal.ReadP.val_main_v62 (F := Ideal) x0 x1 x2 x3 = Cert.Spec.outR x0 x1 x2 x3

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both runs end, on every core, at the first arrangement of the kernel's
    arguments. -/
theorem algebraic_of (hK : KernelValue) (hR : ReferenceValue) : Cert.algebraic_KernelIdeal_ReferenceIdeal := by
  intro m ρ m' ρ' _ hagree
  refine ⟨fun c => Cert.Spec.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c => ⟨(h c).1.trans (hK m ρ c), (h c).2⟩)
      (Cert.KernelIdeal.KValue.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v62_eq, hR, Cert.Algebra.out_eq,
      (hagree c).1, (hagree c).2.1, (hagree c).2.2.1, (hagree c).2.2.2]

theorem claim_of (hK : KernelValue) (hR : ReferenceValue) : Cert.Claim :=
  ⟨Cert.Kernel.Gen.facts, Cert.KernelIdeal.Gen.facts, Cert.ReferenceIdeal.Gen.facts, Cert.Pre_finite_inputs.Gen.facts,
    frame_k, frame_ki, frame_ri, preserves, algebraic_of hK hR⟩

/-- The certificate's claim. -/
theorem claim : Cert.Claim :=
  claim_of (fun m ρ c => Cert.KernelIdeal.KHost.result m ρ c) Cert.ReferenceIdeal.RefValue.ref_value

end Cert.Proof

end
